-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S32x2 .f32) (main_arg24 : FVec F S2 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x2 .f32 := Host.absf main_arg23
  let main_cst_40 : FVec F S_ .f32 := constant S_ .f32 0x7F800000#32
  let main_v105 : FVec F S32x2 .f32 := broadcastInDim S32x2 ![] bcast_S_S32x2 main_cst_40
  let main_v106 : IVec S32x2 1 := cmpf .olt main_v104 main_v105
  let main_c_41 : IVec S_ 1 := constantI S_ 1 1#1
  let main_v107 : IVec S_ 1 := (fun x v => Host.reduce IntOp.andi x v reducesTo_S32x2_S_d0_1 h_S_) main_v106 main_c_41
  let main_v108 : IVec S_ 1 := andi main_v103 main_v107
  let main_v109 : FVec F S2 .f32 := Host.absf main_arg24
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg20 : FVec F S64 .f32) (main_arg21 : FVec F S64x32 .f32) (main_arg22 : FVec F S32 .f32) (main_arg23 : FVec F S32x2 .f32) (main_arg24 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x2 .f32) (main_arg24 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x2 .f32) (main_arg24 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x2 .f32) (main_arg24 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x2 .f32) (main_arg24 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x5 .f32) (main_arg1 : IVec S2x3200000 32) (main_arg2 : IVec S100000 32) (main_arg3 : FVec F S5x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x2 .f32) (main_arg24 : FVec F S2 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S5000x5 : Shape := ⟨2, ![5000, 5]⟩
abbrev S5000x64 : Shape := ⟨2, ![5000, 64]⟩
abbrev S3200000x64 : Shape := ⟨2, ![3200000, 64]⟩
abbrev S1x64 : Shape := ⟨2, ![1, 64]⟩
abbrev S100000x1 : Shape := ⟨2, ![100000, 1]⟩
abbrev S5000x1 : Shape := ⟨2, ![5000, 1]⟩
abbrev S256 : Shape := ⟨1, ![256]⟩
abbrev S256x64 : Shape := ⟨2, ![256, 64]⟩
abbrev S256x1 : Shape := ⟨2, ![256, 1]⟩
abbrev S1x32 : Shape := ⟨2, ![1, 32]⟩
abbrev S1x2 : Shape := ⟨2, ![1, 2]⟩
abbrev S256x2 : Shape := ⟨2, ![256, 2]⟩
abbrev S256x32 : Shape := ⟨2, ![256, 32]⟩

abbrev nBuf : Space → Nat
  | .hbm => 150
  | .vmem => 60
  | .smem => 0
  | _ => 0

abbrev hbmTy0_0 (i : Nat) : BufTy := match i % 128 with
  | 0 => ⟨S100000x5, .f32⟩
  | 1 => ⟨S2x3200000, .i32⟩
  | 2 => ⟨S100000, .i32⟩
  | 3 => ⟨S5x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x32, .f32⟩
  | 22 => ⟨S32, .f32⟩
  | 23 => ⟨S32x2, .f32⟩
  | 24 => ⟨S2, .f32⟩
  | 25 => ⟨S1x3200000, .i32⟩
  | 26 => ⟨S3200000, .i32⟩
  | 27 => ⟨S1x3200000, .i32⟩
  | 28 => ⟨S3200000, .i32⟩
  | 29 => ⟨S_, .f32⟩
  | 30 => ⟨S3200000, .f32⟩
  | 31 => ⟨S_, .f32⟩
  | 32 => ⟨S100000, .f32⟩
  | 33 => ⟨S3200000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S3200000, .f32⟩
  | 58 => ⟨S100000, .f32⟩
  | 59 => ⟨S100000x64, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x64, .f32⟩
  | 69 => ⟨S3200000x1, .f32⟩
  | 70 => ⟨S3200000x64, .f32⟩
  | 71 => ⟨S3200000x64, .f32⟩
  | 72 => ⟨S_, .f32⟩
  | 73 => ⟨S100000x64, .f32⟩
  | 74 => ⟨S3200000x1, .i32⟩
  | 75 => ⟨S100000x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S100000x1, .f32⟩
  | 82 => ⟨S100000x64, .f32⟩
  | 83 => ⟨S100000x64, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x64, .f32⟩
  | 93 => ⟨S3200000x1, .f32⟩
  | 94 => ⟨S3200000x64, .f32⟩
  | 95 => ⟨S3200000x64, .f32⟩
  | 96 => ⟨S_, .f32⟩
  | 97 => ⟨S100000x64, .f32⟩
  | 98 => ⟨S3200000x1, .i32⟩
  | 99 => ⟨S100000x64, .f32⟩
  | 100 => ⟨S1x64, .f32⟩
  | 101 => ⟨S1x64, .f32⟩
  | 102 => ⟨S1x64, .f32⟩
  | 103 => ⟨S1x64, .f32⟩
  | 104 => ⟨S1x64, .f32⟩
  | 105 => ⟨S100000x1, .f32⟩
  | 106 => ⟨S100000x64, .f32⟩
  | 107 => ⟨S100000x64, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x64, .f32⟩
  | 117 => ⟨S3200000x1, .f32⟩
  | 118 => ⟨S3200000x64, .f32⟩
  | 119 => ⟨S3200000x64, .f32⟩
  | 120 => ⟨S_, .f32⟩
  | 121 => ⟨S100000x64, .f32⟩
  | 122 => ⟨S3200000x1, .i32⟩
  | 123 => ⟨S100000x64, .f32⟩
  | 124 => ⟨S1x64, .f32⟩
  | 125 => ⟨S1x64, .f32⟩
  | 126 => ⟨S1x64, .f32⟩
  | 127 => ⟨S1x64, .f32⟩
  | _ => ⟨S100000x5, .f32⟩

abbrev hbmTy0_1 (i : Nat) : BufTy := match i % 128 with
  | 0 => ⟨S1x64, .f32⟩
  | 1 => ⟨S100000x1, .f32⟩
  | 2 => ⟨S100000x64, .f32⟩
  | 3 => ⟨S_, .f32⟩
  | 4 => ⟨S100000, .f32⟩
  | 5 => ⟨S_, .f32⟩
  | 6 => ⟨S256, .f32⟩
  | 7 => ⟨S100000x1, .i32⟩
  | 8 => ⟨S256, .f32⟩
  | 9 => ⟨S_, .f32⟩
  | 10 => ⟨S256x64, .f32⟩
  | 11 => ⟨S100000x1, .i32⟩
  | 12 => ⟨S256x64, .f32⟩
  | 13 => ⟨S_, .f32⟩
  | 14 => ⟨S256, .f32⟩
  | 15 => ⟨S256, .f32⟩
  | 16 => ⟨S256x1, .f32⟩
  | 17 => ⟨S256x64, .f32⟩
  | 18 => ⟨S256x64, .f32⟩
  | 19 => ⟨S1x32, .f32⟩
  | 20 => ⟨S1x2, .f32⟩
  | 21 => ⟨S256x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S256x64, .f32⟩
  | .local _ .vmem, ⟨55, _⟩ => ⟨S64x32, .f32⟩
  | .local _ .vmem, ⟨56, _⟩ => ⟨S1x32, .f32⟩
  | .local _ .vmem, ⟨57, _⟩ => ⟨S32x2, .f32⟩
  | .local _ .vmem, ⟨58, _⟩ => ⟨S1x2, .f32⟩
  | .local _ .vmem, ⟨59, _⟩ => ⟨S256x2, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_c_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_8 : Ref sig .tc := ⟨.hbm, 84, rfl⟩
abbrev main_v49 : Ref sig .tc := ⟨.hbm, 85, rfl⟩
abbrev main_v50 : Ref sig .tc := ⟨.hbm, 86, rfl⟩
abbrev main_c_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_11 : Ref sig .tc := ⟨.hbm, 108, rfl⟩
abbrev main_v70 : Ref sig .tc := ⟨.hbm, 109, rfl⟩
abbrev main_v71 : Ref sig .tc := ⟨.hbm, 110, rfl⟩
abbrev main_c_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_13 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_14 : Ref sig .tc := ⟨.hbm, 131, rfl⟩
abbrev main_v90 : Ref sig .tc := ⟨.hbm, 132, rfl⟩
abbrev main_cst_15 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_16 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_17 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x5_S5x64_S5000x64_1_0_0_1_n_n_wf : DotDims.WF S5000x5 S5x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x64.size a ≤ S100000x64.size a
  hwx5_8 : ∀ i : grid5.Coords, EltTy.bits .f32 = 32 ∨ (Rect.block (s := S100000x64) S5000x64.size (cc5_transform_8 i) (hinb5_8 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x2.size a ≤ S32x2.size a
  hwx6_3 : ∀ i : grid6.Coords, EltTy.bits .f32 = 32 ∨ (Rect.block (s := S32x2) S32x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x2.size a ≤ S256x2.size a
  hwx6_5 : ∀ i : grid6.Coords, EltTy.bits .f32 = 32 ∨ (Rect.block (s := S256x2) S256x2.size (cc6_transform_5 i) (hinb6_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v66) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v68) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v68) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v88) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v87) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v89) S5000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v101) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S32x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S256x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S256x32 : Shape := ⟨2, ![256, 32]⟩
abbrev S1x32 : Shape := ⟨2, ![1, 32]⟩
abbrev S256x2 : Shape := ⟨2, ![256, 2]⟩
abbrev S1x2 : Shape := ⟨2, ![1, 2]⟩

abbrev nBuf : Space → Nat
  | .hbm => 223
  | .vmem => 0
  | .smem => 0
  | _ => 0

abbrev hbmTy0_0 (i : Nat) : BufTy := match i % 128 with
  | 0 => ⟨S100000x5, .f32⟩
  | 1 => ⟨S2x3200000, .i32⟩
  | 2 => ⟨S100000, .i32⟩
  | 3 => ⟨S5x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x32, .f32⟩
  | 22 => ⟨S32, .f32⟩
  | 23 => ⟨S32x2, .f32⟩
  | 24 => ⟨S2, .f32⟩
  | 25 => ⟨S1x3200000, .i32⟩
  | 26 => ⟨S3200000, .i32⟩
  | 27 => ⟨S1x3200000, .i32⟩
  | 28 => ⟨S3200000, .i32⟩
  | 29 => ⟨S_, .f32⟩
  | 30 => ⟨S3200000, .f32⟩
  | 31 => ⟨S_, .f32⟩
  | 32 => ⟨S100000, .f32⟩
  | 33 => ⟨S3200000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S3200000, .f32⟩
  | 58 => ⟨S100000, .f32⟩
  | 59 => ⟨S100000x64, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x64, .f32⟩
  | 69 => ⟨S3200000x1, .f32⟩
  | 70 => ⟨S3200000x64, .f32⟩
  | 71 => ⟨S3200000x64, .f32⟩
  | 72 => ⟨S_, .f32⟩
  | 73 => ⟨S100000x64, .f32⟩
  | 74 => ⟨S3200000x1, .i32⟩
  | 75 => ⟨S100000x64, .f32⟩
  | 76 => ⟨S100000x1, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x64, .f32⟩
  | 112 => ⟨S3200000x1, .f32⟩
  | 113 => ⟨S3200000x64, .f32⟩
  | 114 => ⟨S3200000x64, .f32⟩
  | 115 => ⟨S_, .f32⟩
  | 116 => ⟨S100000x64, .f32⟩
  | 117 => ⟨S3200000x1, .i32⟩
  | 118 => ⟨S100000x64, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x5, .f32⟩

abbrev hbmTy0_1 (i : Nat) : BufTy := match i % 128 with
  | 0 => ⟨S100000x64, .f32⟩
  | 1 => ⟨S_, .f32⟩
  | 2 => ⟨S64, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x64, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x64, .f32⟩
  | 27 => ⟨S3200000x1, .f32⟩
  | 28 => ⟨S3200000x64, .f32⟩
  | 29 => ⟨S3200000x64, .f32⟩
  | 30 => ⟨S_, .f32⟩
  | 31 => ⟨S100000x64, .f32⟩
  | 32 => ⟨S3200000x1, .i32⟩
  | 33 => ⟨S100000x64, .f32⟩
  | 34 => ⟨S100000x1, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S_, .f32⟩
  | 61 => ⟨S100000, .f32⟩
  | 62 => ⟨S_, .f32⟩
  | 63 => ⟨S256, .f32⟩
  | 64 => ⟨S100000x1, .i32⟩
  | 65 => ⟨S256, .f32⟩
  | 66 => ⟨S_, .f32⟩
  | 67 => ⟨S256x64, .f32⟩
  | 68 => ⟨S100000x1, .i32⟩
  | 69 => ⟨S256x64, .f32⟩
  | 70 => ⟨S_, .f32⟩
  | 71 => ⟨S256, .f32⟩
  | 72 => ⟨S256, .f32⟩
  | 73 => ⟨S256x1, .f32⟩
  | 74 => ⟨S256x64, .f32⟩
  | 75 => ⟨S256x64, .f32⟩
  | 76 => ⟨S256x32, .f32⟩
  | 77 => ⟨S1x32, .f32⟩
  | 78 => ⟨S256x32, .f32⟩
  | 79 => ⟨S256x32, .f32⟩
  | 80 => ⟨S_, .f32⟩
  | 81 => ⟨S256x32, .f32⟩
  | 82 => ⟨S256x32, .f32⟩
  | 83 => ⟨S256x2, .f32⟩
  | 84 => ⟨S1x2, .f32⟩
  | 85 => ⟨S256x2, .f32⟩
  | 86 => ⟨S256x2, .f32⟩
  | 87 => ⟨S256x2, .f32⟩
  | 88 => ⟨S256x2, .f32⟩
  | 89 => ⟨S_, .f32⟩
  | 90 => ⟨S256x2, .f32⟩
  | 91 => ⟨S256x2, .f32⟩
  | 92 => ⟨S_, .f32⟩
  | 93 => ⟨S256x2, .f32⟩
  | 94 => ⟨S256x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_c_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call0_cst : Ref sig .tc := ⟨.hbm, 99, rfl⟩
abbrev main_call0_v0 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_11 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call1_cst : Ref sig .tc := ⟨.hbm, 142, rfl⟩
abbrev main_call1_v0 : Ref sig .tc := ⟨.hbm, 143, rfl⟩
abbrev main_v100 : Ref sig .tc := ⟨.hbm, 144, rfl⟩
abbrev main_v101 : Ref sig .tc := ⟨.hbm, 145, rfl⟩
abbrev main_c_13 : Ref sig .tc := ⟨.hbm, 146, rfl⟩
abbrev main_v102 : Ref sig .tc := ⟨.hbm, 147, rfl⟩
abbrev main_v103 : Ref sig .tc := ⟨.hbm, 148, rfl⟩
abbrev main_c_14 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_15 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_16 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call2_cst : Ref sig .tc := ⟨.hbm, 185, rfl⟩
abbrev main_call2_v0 : Ref sig .tc := ⟨.hbm, 186, rfl⟩
abbrev main_v137 : Ref sig .tc := ⟨.hbm, 187, rfl⟩
abbrev main_cst_17 : Ref sig .tc := ⟨.hbm, 188, rfl⟩
abbrev main_v138 : Ref sig .tc := ⟨.hbm, 189, rfl⟩
abbrev main_cst_18 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_19 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_20 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_call3_cst : Ref sig .tc := ⟨.hbm, 208, rfl⟩
abbrev main_call3_v0 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_21 : Ref sig .tc := ⟨.hbm, 217, rfl⟩
abbrev main_v161 : Ref sig .tc := ⟨.hbm, 218, rfl⟩
abbrev main_v162 : Ref sig .tc := ⟨.hbm, 219, rfl⟩
abbrev main_cst_22 : Ref sig .tc := ⟨.hbm, 220, rfl⟩
abbrev main_v163 : Ref sig .tc := ⟨.hbm, 221, rfl⟩
abbrev main_v164 : Ref sig .tc := ⟨.hbm, 222, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  bcast_S_S256x2 : S_.BroadcastsInDim S256x2 (![] : Fin 0 → Fin S256x2.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x5_S5x64_S100000x64_1_0_0_1_n_n_wf : DotDims.WF S100000x5 S5x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.KRun.lean ====
/-
  The kernel program's run with its final memory named: every weakly fair execution of the whole program terminates
  without a fault, and in every final state each buffer that outlives the regions holds what the last of the twelve
  segments — five stretches of host operations and seven kernel regions, in program order — leaves in it. The contents
  after each segment are a fold from the launch memory: a stretch of host operations rewrites the buffers its
  operations write, a region rewrites its output array with what its grid points wrote back.
-/
import proofs.«181545_j70549132804339_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program from any launch memory with zero counters: in every final state every lasting buffer
    of every core holds the fold's last contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- A buffer of the program's own (not a region's staging buffer) is a lasting one. -/
theorem lasting (b : Ref sig .tc) (h : ¬ (Proc.devRef .tc b : DevRef τ sig).isScoped) :
    Proc.devRef .tc b ∈ Pipeline.ucRefs τ sig := mem_uc b h

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Spec.lean ====
/-
  The three pieces of arithmetic this network is made of, each as a function of whole arrays read index by index on
  the extended reals. No program is mentioned here.

  * dense: a matrix product. The entry at (p, q) is the sum over k of x (p, k) · w (k, q).
  * combine: what one graph-convolution layer does to a node's feature after the neighbours' messages have been
    summed. At (p, q): the aggregated message plus the node's own feature scaled by its self-loop weight, plus the
    layer's bias; then the feature-wise normalisation (subtract the running mean, multiply by the reciprocal square
    root of the running variance plus a small constant, multiply by the scale, add the shift); then the positive part.
    The per-node weight is a column [M, 1]; the per-feature parameters are rows [1, N].
  * head: two dense layers on the pooled features — bias and positive part after the first, bias and the logistic
    function after the second.
-/
import Idealize.ShloMosaic.Lib.ValueIdx
import Idealize.ShloMosaic.PureOps.Ideal

noncomputable section

namespace Cert.Spec

open Idealize.ShloMosaic Idealize.ShloMosaic.ValueIdx

/-- The matrix product of an [M, K] array with a [K, N] array. -/
def dense (M K N : ℕ) (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- One layer's combination, normalisation and positive part, entry by entry. -/
def combine (M N : ℕ) (eps zero : EReal) (agg h : (⟨2, ![M, N]⟩ : Shape).Idx → EReal)
    (sn : (⟨2, ![M, 1]⟩ : Shape).Idx → EReal) (b g be rm rv : (⟨2, ![1, N]⟩ : Shape).Idx → EReal) :
    (⟨2, ![M, N]⟩ : Shape).Idx → EReal :=
  fun i =>
    max ((((agg i + h i * sn (ix2 (n0 := M) (n1 := 1) (i 0) 0)) + b (ix2 (n0 := 1) (n1 := N) 0 (i 1)))
            - rm (ix2 (n0 := 1) (n1 := N) 0 (i 1)))
          * Ideal.rsqrt (rv (ix2 (n0 := 1) (n1 := N) 0 (i 1)) + eps)
          * g (ix2 (n0 := 1) (n1 := N) 0 (i 1))
        + be (ix2 (n0 := 1) (n1 := N) 0 (i 1))) zero

/-- The combination at an index, once the eight entries it reads are known. -/
theorem combine_apply_of {M N : ℕ} (eps zero : EReal) (agg h : (⟨2, ![M, N]⟩ : Shape).Idx → EReal)
    (sn : (⟨2, ![M, 1]⟩ : Shape).Idx → EReal) (b g be rm rv : (⟨2, ![1, N]⟩ : Shape).Idx → EReal)
    (i : (⟨2, ![M, N]⟩ : Shape).Idx) (x0 x1 x2 x3 x4 x5 x6 x7 : EReal)
    (h0 : agg i = x0) (h1 : h i = x1) (h2 : sn (ix2 (n0 := M) (n1 := 1) (i 0) 0) = x2)
    (h3 : b (ix2 (n0 := 1) (n1 := N) 0 (i 1)) = x3) (h4 : g (ix2 (n0 := 1) (n1 := N) 0 (i 1)) = x4)
    (h5 : be (ix2 (n0 := 1) (n1 := N) 0 (i 1)) = x5) (h6 : rm (ix2 (n0 := 1) (n1 := N) 0 (i 1)) = x6)
    (h7 : rv (ix2 (n0 := 1) (n1 := N) 0 (i 1)) = x7) :
    combine M N eps zero agg h sn b g be rm rv i
      = max ((((x0 + x1 * x2) + x3) - x6) * Ideal.rsqrt (x7 + eps) * x4 + x5) zero := by
  subst h0 h1 h2 h3 h4 h5 h6 h7
  rfl

/-- Two combinations agree at two indices as soon as the eight entries each reads agree. -/
theorem combine_congr {M M' N : ℕ} (eps zero : EReal)
    (agg h : (⟨2, ![M, N]⟩ : Shape).Idx → EReal) (sn : (⟨2, ![M, 1]⟩ : Shape).Idx → EReal)
    (b g be rm rv : (⟨2, ![1, N]⟩ : Shape).Idx → EReal)
    (agg' h' : (⟨2, ![M', N]⟩ : Shape).Idx → EReal) (sn' : (⟨2, ![M', 1]⟩ : Shape).Idx → EReal)
    (b' g' be' rm' rv' : (⟨2, ![1, N]⟩ : Shape).Idx → EReal)
    (i : (⟨2, ![M, N]⟩ : Shape).Idx) (i' : (⟨2, ![M', N]⟩ : Shape).Idx)
    (h0 : agg i = agg' i') (h1 : h i = h' i')
    (h2 : sn (ix2 (n0 := M) (n1 := 1) (i 0) 0) = sn' (ix2 (n0 := M') (n1 := 1) (i' 0) 0))
    (h3 : b (ix2 (n0 := 1) (n1 := N) 0 (i 1)) = b' (ix2 (n0 := 1) (n1 := N) 0 (i' 1)))
    (h4 : g (ix2 (n0 := 1) (n1 := N) 0 (i 1)) = g' (ix2 (n0 := 1) (n1 := N) 0 (i' 1)))
    (h5 : be (ix2 (n0 := 1) (n1 := N) 0 (i 1)) = be' (ix2 (n0 := 1) (n1 := N) 0 (i' 1)))
    (h6 : rm (ix2 (n0 := 1) (n1 := N) 0 (i 1)) = rm' (ix2 (n0 := 1) (n1 := N) 0 (i' 1)))
    (h7 : rv (ix2 (n0 := 1) (n1 := N) 0 (i 1)) = rv' (ix2 (n0 := 1) (n1 := N) 0 (i' 1))) :
    combine M N eps zero agg h sn b g be rm rv i = combine M' N eps zero agg' h' sn' b' g' be' rm' rv' i' := by
  unfold combine
  show max ((((agg i + h i * sn (ix2 (n0 := M) (n1 := 1) (i 0) 0)) + b (ix2 (n0 := 1) (n1 := N) 0 (i 1)))
            - rm (ix2 (n0 := 1) (n1 := N) 0 (i 1)))
          * Ideal.rsqrt (rv (ix2 (n0 := 1) (n1 := N) 0 (i 1)) + eps)
          * g (ix2 (n0 := 1) (n1 := N) 0 (i 1))
        + be (ix2 (n0 := 1) (n1 := N) 0 (i 1))) zero = _
  rw [h0, h1, h2, h3, h4, h5, h6, h7]

/-- The hidden layer of the head: a dense layer, its bias, the positive part. -/
def hidden (G H1 H2 : ℕ) (zero : EReal) (pooled : (⟨2, ![G, H1]⟩ : Shape).Idx → EReal)
    (w1 : (⟨2, ![H1, H2]⟩ : Shape).Idx → EReal) (b1 : (⟨2, ![1, H2]⟩ : Shape).Idx → EReal) :
    (⟨2, ![G, H2]⟩ : Shape).Idx → EReal :=
  fun j => max (dense G H1 H2 pooled w1 j + b1 (ix2 (n0 := 1) (n1 := H2) 0 (j 1))) zero

/-- The head: the hidden layer, a second dense layer, its bias, the logistic function. -/
def head (G H1 H2 O : ℕ) (zero : EReal) (pooled : (⟨2, ![G, H1]⟩ : Shape).Idx → EReal)
    (w1 : (⟨2, ![H1, H2]⟩ : Shape).Idx → EReal) (b1 : (⟨2, ![1, H2]⟩ : Shape).Idx → EReal)
    (w2 : (⟨2, ![H2, O]⟩ : Shape).Idx → EReal) (b2 : (⟨2, ![1, O]⟩ : Shape).Idx → EReal) :
    (⟨2, ![G, O]⟩ : Shape).Idx → EReal :=
  fun i => Ideal.logistic (dense G H2 O (hidden G H1 H2 zero pooled w1 b1) w2 i + b2 (ix2 (n0 := 1) (n1 := O) 0 (i 1)))

end Cert.Spec

end
-- ==== Proof.KDense0.lean ====
/-
  What the first dense region of the kernel leaves in its output array: the matrix product of its two input arrays
  as the region finds them.

  The region walks the 100000 rows in 20 blocks of 5000. At grid point t it loads rows 5000·t … 5000·t + 4999 of the
  left operand (all 5 columns) and the whole 5 × 64 right operand, multiplies them into a zero accumulator (the
  narrowing of both operands to a shorter float format is the identity on the extended reals) and writes the
  5000 × 64 product back as rows 5000·t … 5000·t + 4999 of the output. An entry (r, q) of the output therefore lies in
  the block of point r / 5000 and nowhere else, and it holds the sum over k of left (r, k) · right (k, q).
-/
import proofs.«181545_j70549132804339_1_alg».proof.Proof.Gen.KernelIdeal.Frame
import proofs.«181545_j70549132804339_1_alg».proof.Proof.LibPlainDot
import proofs.«181545_j70549132804339_1_alg».proof.Proof.Spec
import Idealize.ShloMosaic.Lib.Pipeline.Value
import Idealize.ShloMosaic.Lib.ValueIdx

set_option maxRecDepth 16384

noncomputable section

namespace Cert.KernelIdeal.Dense0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of the block: the sum over k of the loaded left block at (p, k) times the loaded
    right operand at (k, q). -/
theorem payload_apply (x0 : Vec Ideal S5000x5 .f32) (x1 : Vec Ideal S5x64 .f32) (p : Fin 5000) (q : Fin 64) :
    k0_pay1 (F := Ideal) x0 x1 (ix2 p q) = ∑ k : Fin 5, x0 (ix2 p k) * x1 (ix2 k q) := by
  unfold k0_pay1
  exact Cert.Lib.matmul_zero_apply (M := 5000) (K := 5) (N := 64) dot_S5000x5_S5x64_S5000x64_1_0_0_1_n_n.wf none _ _ p q

/-- Where the three windows sit at grid point t: the left operand's and the output's blocks are the t-th row blocks,
    the right operand's block is the whole array. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some grid point's. -/
theorem block_of_row : ∀ q0 : Fin 20, ∃ t : Fin cfg0.N, win0_2.index t = ![q0.val, 0] :=
  (by decide +kernel : ∀ q0 : Fin 20, ∃ t : Fin grid0.N, win0_2.index t = ![q0.val, 0])

/-- What grid point t writes back is block t of the matrix product of the two input arrays. -/
theorem flushed_eq (c : Dev nD) (t : Fin cfg0.N) :
    (dat0 V c).flushed 2 t = ((cfg0.win 2).blk t).view.read (Elt Ideal)
      (Cert.Spec.dense 100000 5 64 (V c main_arg0) (V c main_arg3)) := by
  show (cfg0.win 2).cut (grid0.coords t) ((dat0 V c).after 2 t) = _
  rw [after0_2]
  unfold out0_2
  rw [View.canon_unit_zero origin]
  simp only [View.ld_unit_zero (S := S5000x5) origin, View.ld_unit_zero (S := S5x64) origin]
  obtain ⟨e0, e1, e2, e3, e4, e5⟩ := blocks_at t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
      = Cert.Spec.dense 100000 5 64 (V c main_arg0) (V c main_arg3) (((cfg0.win 2).blk t).view.emb (ix2 p q))
  rw [payload_apply]
  unfold Cert.Spec.dense
  refine Finset.sum_congr rfl fun k _ => ?_
  have hl : ((cfg0.win 0).blk t).view.emb (ix2 p k)
      = ix2 (n0 := 100000) (n1 := 5) ((((cfg0.win 2).blk t).view.emb (ix2 p q)) 0) k := by
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 5 + 1 * k.val = k.val
      omega
  have hr : ((cfg0.win 1).blk t).view.emb (ix2 k q)
      = ix2 (n0 := 5) (n1 := 64) k ((((cfg0.win 2).blk t).view.emb (ix2 p q)) 1) := by
    funext a; apply Fin.ext
    match a with
    | ⟨0, _⟩ =>
      show win0_1.index t (0 : Fin 2) * 5 + 1 * k.val = k.val
      omega
    | ⟨1, _⟩ =>
      show win0_1.index t (1 : Fin 2) * 64 + 1 * q.val = win0_2.index t (1 : Fin 2) * 64 + 1 * q.val
      omega
  exact congrArg₂ (fun x y : EReal => x * y) (congrArg (V c main_arg0) hl) (congrArg (V c main_arg3) hr)

/-- An index of the output array lies in point t's block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Row r of the output lies in the block of grid point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- THE OUTPUT ARRAY after the region: the matrix product of the two input arrays as the region finds them. -/
theorem value (c : Dev nD) :
    (dat0 V c).arrAt 2 cfg0.N = Cert.Spec.dense 100000 5 64 (V c main_arg0) (V c main_arg3) :=
  (dat0 V c).arrAt_eq_of_cover 2 _ (fun t _ => flushed_eq V c t) covered

end Cert.KernelIdeal.Dense0

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.KCombine1.lean ====
/-
  What the first combine region of the kernel leaves in its output array: the layer's combination, normalisation and
  positive part of its eight input arrays as the region finds them, entry by entry.

  The region walks the 100000 rows in 20 blocks of 5000. At grid point t it loads rows 5000·t … 5000·t + 4999 of the
  aggregated messages, of the node features and of the column of self-loop weights, and the five one-row parameter
  arrays whole. Every operation of the body is entrywise once the column has been repeated along each row and each
  parameter row down each column, so the block's entry (p, q) is a function of the aggregated message and the feature
  at (p, q), the weight of row p and the parameters of column q; it is written back as row 5000·t + p. An entry
  (r, q) of the output lies in the block of point r / 5000 and nowhere else.
-/
import proofs.«181545_j70549132804339_1_alg».proof.Proof.Gen.KernelIdeal.Frame
import proofs.«181545_j70549132804339_1_alg».proof.Proof.LibColumn
import proofs.«181545_j70549132804339_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine1

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The small constant added to the running variance, and zero, as the body spells them. -/
abbrev eps : EReal := Ideal.ofBits .f32 0x3727C5AC#32
abbrev zero : EReal := Ideal.ofBits .f32 0x00000000#32

/-- The body's stored value at (p, q) of the block, from the loaded blocks: the operands in the order the body loads
    them are the messages, the features, the weight column, the bias, the running mean, the running variance, the
    scale and the shift. -/
theorem payload_apply (v0 v2 : Vec Ideal S5000x64 .f32) (v4 : Vec Ideal S5000x1 .f32)
    (v9 v13 v17 v24 v28 : Vec Ideal S1x64 .f32) (p : Fin 5000) (q : Fin 64) :
    k1_pay1 (F := Ideal) v0 v2 v4 v9 v13 v17 v24 v28 (ix2 p q)
      = Cert.Spec.combine 5000 64 eps zero v0 v2 v4 v9 v24 v28 v13 v17 (ix2 p q) := by
  unfold k1_pay1
  simp only [shapeCast_self]
  show max ((((v0 (ix2 p q) + v2 (ix2 p q) * broadcastTo S5000x64 v4 broadcasts_S5000x1_S5000x64 (ix2 p q))
                + broadcastTo S5000x64 v9 broadcasts_S1x64_S5000x64 (ix2 p q))
              - broadcastTo S5000x64 v13 broadcasts_S1x64_S5000x64 (ix2 p q))
            * broadcastTo S5000x64 (fun i => Ideal.rsqrt (v17 i + eps)) broadcasts_S1x64_S5000x64 (ix2 p q)
            * broadcastTo S5000x64 v24 broadcasts_S1x64_S5000x64 (ix2 p q)
          + broadcastTo S5000x64 v28 broadcasts_S1x64_S5000x64 (ix2 p q)) zero = _
  rw [Cert.Lib.broadcastTo_a1_ab_apply, broadcastTo_1b_ab_apply, broadcastTo_1b_ab_apply, broadcastTo_1b_ab_apply,
    broadcastTo_1b_ab_apply, broadcastTo_1b_ab_apply]
  rfl

/-- Where the nine windows sit at grid point t: the two feature windows, the weight column and the output are at
    the t-th row block, the five parameter rows are whole. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Every row block is some grid point's. -/
theorem block_of_row : ∀ q0 : Fin 20, ∃ t : Fin cfg1.N, win1_8.index t = ![q0.val, 0] :=
  (by decide +kernel : ∀ q0 : Fin 20, ∃ t : Fin grid1.N, win1_8.index t = ![q0.val, 0])

/-! Where a block entry sits in its array: a window's block at point t starts at its block index times the block's
    extent on each axis. -/

theorem entry_0 (t : Fin cfg1.N) (p : Fin 5000) (q : Fin 64) :
    ((cfg1.win 0).blk t).view.emb (ix2 p q) = ((cfg1.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win1_0.index t (0 : Fin 2) * 5000 + 1 * p.val = win1_8.index t (0 : Fin 2) * 5000 + 1 * p.val; omega
  | ⟨1, _⟩ => show win1_0.index t (1 : Fin 2) * 64 + 1 * q.val = win1_8.index t (1 : Fin 2) * 64 + 1 * q.val; omega
theorem entry_1 (t : Fin cfg1.N) (p : Fin 5000) (q : Fin 64) :
    ((cfg1.win 1).blk t).view.emb (ix2 p q) = ((cfg1.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win1_1.index t (0 : Fin 2) * 5000 + 1 * p.val = win1_8.index t (0 : Fin 2) * 5000 + 1 * p.val; omega
  | ⟨1, _⟩ => show win1_1.index t (1 : Fin 2) * 64 + 1 * q.val = win1_8.index t (1 : Fin 2) * 64 + 1 * q.val; omega
theorem entry_2 (t : Fin cfg1.N) (p : Fin 5000) (q : Fin 64) :
    ((cfg1.win 2).blk t).view.emb (ix2 p (0 : Fin 1)) = ix2 (n0 := 100000) (n1 := 1) (((cfg1.win 8).blk t).view.emb (ix2 p q) 0) 0 := by
  obtain ⟨e00, e01, e10, e11, e20, e21, e30, e31, e40, e41, e50, e51, e60, e61, e70, e71, e80, e81⟩ := blocks_at t
  funext a; apply Fin.ext
  match a with
  | ⟨0, _⟩ => show win1_2.index t (0 : Fin 2) * 5000 + 1 * p.val = win1_8.index t (0 : Fin 2) * 5000 + 1 * p.val; omega
  | ⟨1, _⟩ => show win1_2.index t (1 : Fin 2) * 1 + 1 * 0 = 0; omega
theorem entry_3 (t : Fin cfg1.N) (p : Fin 5000) (q : Fin 64) :
    ((cfg1.win 3).blk t).view.emb (ix2 (0 : Fin 1) q) = ix2 (n0 := 1) (n1 := 64) 0 (((cfg1.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win1_3.index t (0 : Fin 2) * 1 + 1 * 0 = 0; omega
  | ⟨1, _⟩ => show win1_3.index t (1 : Fin 2) * 64 + 1 * q.val = win1_8.index t (1 : Fin 2) * 64 + 1 * q.val; omega
theorem entry_4 (t : Fin cfg1.N) (p : Fin 5000) (q : Fin 64) :
    ((cfg1.win 4).blk t).view.emb (ix2 (0 : Fin 1) q) = ix2 (n0 := 1) (n1 := 64) 0 (((cfg1.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win1_4.index t (0 : Fin 2) * 1 + 1 * 0 = 0; omega
  | ⟨1, _⟩ => show win1_4.index t (1 : Fin 2) * 64 + 1 * q.val = win1_8.index t (1 : Fin 2) * 64 + 1 * q.val; omega
theorem entry_5 (t : Fin cfg1.N) (p : Fin 5000) (q : Fin 64) :
    ((cfg1.win 5).blk t).view.emb (ix2 (0 : Fin 1) q) = ix2 (n0 := 1) (n1 := 64) 0 (((cfg1.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win1_5.index t (0 : Fin 2) * 1 + 1 * 0 = 0; omega
  | ⟨1, _⟩ => show win1_5.index t (1 : Fin 2) * 64 + 1 * q.val = win1_8.index t (1 : Fin 2) * 64 + 1 * q.val; omega
theorem entry_6 (t : Fin cfg1.N) (p : Fin 5000) (q : Fin 64) :
    ((cfg1.win 6).blk t).view.emb (ix2 (0 : Fin 1) q) = ix2 (n0 := 1) (n1 := 64) 0 (((cfg1.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win1_6.index t (0 : Fin 2) * 1 + 1 * 0 = 0; omega
  | ⟨1, _⟩ => show win1_6.index t (1 : Fin 2) * 64 + 1 * q.val = win1_8.index t (1 : Fin 2) * 64 + 1 * q.val; omega
theorem entry_7 (t : Fin cfg1.N) (p : Fin 5000) (q : Fin 64) :
    ((cfg1.win 7).blk t).view.emb (ix2 (0 : Fin 1) q) = ix2 (n0 := 1) (n1 := 64) 0 (((cfg1.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win1_7.index t (0 : Fin 2) * 1 + 1 * 0 = 0; omega
  | ⟨1, _⟩ => show win1_7.index t (1 : Fin 2) * 64 + 1 * q.val = win1_8.index t (1 : Fin 2) * 64 + 1 * q.val; omega

/-- What grid point t writes back is block t of the layer's combination of the eight input arrays. -/
theorem flushed_eq (c : Dev nD) (t : Fin cfg1.N) :
    (dat1 V c).flushed 8 t = ((cfg1.win 8).blk t).view.read (Elt Ideal)
      (Cert.Spec.combine 100000 64 eps zero (V c main_v40) (V c main_v27) (V c main_v46) (V c main_v41) (V c main_v42)
        (V c main_v43) (V c main_v44) (V c main_v45)) := by
  show (cfg1.win 8).cut (grid1.coords t) ((dat1 V c).after 8 t) = _
  rw [after1_8]
  unfold out1_8
  rw [View.canon_unit_zero origin]
  simp only [View.ld_unit_zero (S := S5000x64) origin, View.ld_unit_zero (S := S5000x1) origin,
    View.ld_unit_zero (S := S1x64) origin]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 6 t) (iblk1 V c 7 t)
        (iblk1 V c 4 t) (iblk1 V c 5 t) (ix2 p q)
      = Cert.Spec.combine 100000 64 eps zero (V c main_v40) (V c main_v27) (V c main_v46) (V c main_v41) (V c main_v42)
        (V c main_v43) (V c main_v44) (V c main_v45) (((cfg1.win 8).blk t).view.emb (ix2 p q))
  rw [payload_apply]
  refine Cert.Spec.combine_congr eps zero _ _ _ _ _ _ _ _ _ _ _ _ _ _ _ _ _ _ ?_ ?_ ?_ ?_ ?_ ?_ ?_ ?_
  · exact (congrArg (V c main_v40) (entry_0 t p q) :)
  · exact (congrArg (V c main_v27) (entry_1 t p q) :)
  · exact (congrArg (V c main_v46) (entry_2 t p q) :)
  · exact (congrArg (V c main_v41) (entry_3 t p q) :)
  · exact (congrArg (V c main_v42) (entry_4 t p q) :)
  · exact (congrArg (V c main_v43) (entry_5 t p q) :)
  · exact (congrArg (V c main_v44) (entry_6 t p q) :)
  · exact (congrArg (V c main_v45) (entry_7 t p q) :)

/-- An index of the output array lies in point t's block iff each coordinate is in the block's range on its axis. -/
theorem mem_block (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v47).slice (win1_8.rect t)).set ↔ _
  rw [View.set_slice_whole, Rect.mem_set_unit]
  exact Iff.rfl

/-- Row r of the output lies in the block of grid point r / 5000. -/
theorem covered (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ := block_of_row ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_block]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- THE OUTPUT ARRAY after the region: the layer's combination of the eight input arrays as the region finds them. -/
theorem value (c : Dev nD) :
    (dat1 V c).arrAt 8 cfg1.N
      = Cert.Spec.combine 100000 64 eps zero (V c main_v40) (V c main_v27) (V c main_v46) (V c main_v41) (V c main_v42)
        (V c main_v43) (V c main_v44) (V c main_v45) :=
  (dat1 V c).arrAt_eq_of_cover 8 _ (fun t _ => flushed_eq V c t) covered

end Cert.KernelIdeal.Combine1

end
-- ==== Proof.KDense2.lean ====
/-
  What the second dense region of the kernel leaves in its output array: the matrix product of its two input arrays
  as the region finds them.

  The region walks the 100000 rows in 20 blocks of 5000. At grid point t it loads rows 5000·t … 5000·t + 4999 of the
  left operand (all 64 columns) and the whole 64 × 64 right operand, multiplies them into a zero accumulator (the
  narrowing of both operands to a shorter float format is the identity on the extended reals) and writes the
  5000 × 64 product back as rows 5000·t … 5000·t + 4999 of the output. An entry (r, q) of the output therefore lies in
  the block of point r / 5000 and nowhere else, and it holds the sum over k of left (r, k) · right (k, q).
-/
import proofs.«181545_j70549132804339_1_alg».proof.Proof.Gen.KernelIdeal.Frame
import proofs.«181545_j70549132804339_1_alg».proof.Proof.LibPlainDot
import proofs.«181545_j70549132804339_1_alg».proof.Proof.Spec
import Idealize.ShloMosaic.Lib.Pipeline.Value
import Idealize.ShloMosaic.Lib.ValueIdx

set_option maxRecDepth 16384

noncomputable section

namespace Cert.KernelIdeal.Dense2

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of the block: the sum over k of the loaded left block at (p, k) times the loaded
    right operand at (k, q). -/
theorem payload_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  simp only [shapeCast_self]
  exact Cert.Lib.matmul_zero_apply (M := 5000) (K := 64) (N := 64) dot_S5000x64_S64x64_S5000x64_1_0_0_1_n_n.wf none _ _ p q

/-- Where the three windows sit at grid point t: the left operand's and the output's blocks are the t-th row blocks,
    the right operand's block is the whole array. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every row block is some grid point's. -/
theorem block_of_row : ∀ q0 : Fin 20, ∃ t : Fin cfg2.N, win2_2.index t = ![q0.val, 0] :=
  (by decide +kernel : ∀ q0 : Fin 20, ∃ t : Fin grid2.N, win2_2.index t = ![q0.val, 0])

/-- What grid point t writes back is block t of the matrix product of the two input arrays. -/
theorem flushed_eq (c : Dev nD) (t : Fin cfg2.N) :
    (dat2 V c).flushed 2 t = ((cfg2.win 2).blk t).view.read (Elt Ideal)
      (Cert.Spec.dense 100000 64 64 (V c main_v47) (V c main_arg9)) := by
  show (cfg2.win 2).cut (grid2.coords t) ((dat2 V c).after 2 t) = _
  rw [after2_2]
  unfold out2_2
  rw [View.canon_unit_zero origin]
  simp only [View.ld_unit_zero (S := S5000x64) origin, View.ld_unit_zero (S := S64x64) origin]
  obtain ⟨e0, e1, e2, e3, e4, e5⟩ := blocks_at t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (ix2 p q)
      = Cert.Spec.dense 100000 64 64 (V c main_v47) (V c main_arg9) (((cfg2.win 2).blk t).view.emb (ix2 p q))
  rw [payload_apply]
  unfold Cert.Spec.dense
  refine Finset.sum_congr rfl fun k _ => ?_
  have hl : ((cfg2.win 0).blk t).view.emb (ix2 p k)
      = ix2 (n0 := 100000) (n1 := 64) ((((cfg2.win 2).blk t).view.emb (ix2 p q)) 0) k := by
    funext a; apply Fin.ext
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 64 + 1 * k.val = k.val
      omega
  have hr : ((cfg2.win 1).blk t).view.emb (ix2 k q)
      = ix2 (n0 := 64) (n1 := 64) k ((((cfg2.win 2).blk t).view.emb (ix2 p q)) 1) := by
    funext a; apply Fin.ext
    match a with
    | ⟨0, _⟩ =>
      show win2_1.index t (0 : Fin 2) * 64 + 1 * k.val = k.val
      omega
    | ⟨1, _⟩ =>
      show win2_1.index t (1 : Fin 2) * 64 + 1 * q.val = win2_2.index t (1 : Fin 2) * 64 + 1 * q.val
      omega
  exact congrArg₂ (fun x y : EReal => x * y) (congrArg (V c main_v47) hl) (congrArg (V c main_arg9) hr)

/-- An index of the output array lies in point t's block iff each coordinate is in the block's range on its axis. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v48).slice (win2_2.rect t)).set ↔ _
  rw [View.set_slice_whole, Rect.mem_set_unit]
  exact Iff.rfl

/-- Row r of the output lies in the block of grid point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := block_of_row ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- THE OUTPUT ARRAY after the region: the matrix product of the two input arrays as the region finds them. -/
theorem value (c : Dev nD) :
    (dat2 V c).arrAt 2 cfg2.N = Cert.Spec.dense 100000 64 64 (V c main_v47) (V c main_arg9) :=
  (dat2 V c).arrAt_eq_of_cover 2 _ (fun t _ => flushed_eq V c t) covered

end Cert.KernelIdeal.Dense2

end
-- ==== Proof.RStages.lean ====
/-
  The reference's three kinds of stage, each as a function of the arrays it reads, and each equal — on the extended
  reals, entry by entry — to the plain arithmetic of the specification.

  * Its matrix products are the specification's dense product: the contraction's terms at (p, q) are
    left (p, k) · right (k, q).
  * Its layer combination repeats the per-node weight vector along every row and each per-feature parameter vector
    down every column before operating entrywise; reading the repetitions at an index gives the specification's
    combination of the weight as a column and the parameters as rows (the casts of a vector to a column or to a
    row keep the order of its entries).
  * Its head spells the logistic function as one over one plus the exponential of the negated argument, which is
    the logistic function of the extended reals; the floating-point word of one is the number one.
-/
import proofs.«181545_j70549132804339_1_alg».proof.Proof.Gen.ReferenceIdeal.Read
import proofs.«181545_j70549132804339_1_alg».proof.Proof.LibPlainDot
import proofs.«181545_j70549132804339_1_alg».proof.Proof.LibColumn
import proofs.«181545_j70549132804339_1_alg».proof.Proof.Spec
import Idealize.ShloMosaic.Lib.IdealHost
import Idealize.ShloMosaic.Lib.ValueLayout

set_option maxRecDepth 16384

noncomputable section

namespace Cert.ReferenceIdeal.Stage

open Cert.ReferenceIdeal Cert.ReferenceIdeal.Gen Idealize.ShloMosaic Idealize.ShloMosaic.ValueIdx

abbrev eps : EReal := Ideal.ofBits .f32 0x3727C5AC#32
abbrev zero : EReal := Ideal.ofBits .f32 0x00000000#32

/-! ## The matrix products -/

theorem dense_5_64 (x : FVec Ideal S100000x5 .f32) (w : FVec Ideal S5x64 .f32) :
    Host.dotGeneral dot_S100000x5_S5x64_S100000x64_1_0_0_1_n_n none x w = Cert.Spec.dense 100000 5 64 x w := by
  funext i
  obtain ⟨p, q, rfl⟩ : ∃ (p : Fin 100000) (q : Fin 64), i = ix2 p q := ⟨i 0, i 1, eq_ix2 i⟩
  simp only [Host.dotGeneral]
  exact Cert.Lib.dotGeneral_plain_apply (M := 100000) (K := 5) (N := 64) dot_S100000x5_S5x64_S100000x64_1_0_0_1_n_n.wf none _ x w p q

theorem dense_64_64 (x : FVec Ideal S100000x64 .f32) (w : FVec Ideal S64x64 .f32) :
    Host.dotGeneral dot_S100000x64_S64x64_S100000x64_1_0_0_1_n_n none x w = Cert.Spec.dense 100000 64 64 x w := by
  funext i
  obtain ⟨p, q, rfl⟩ : ∃ (p : Fin 100000) (q : Fin 64), i = ix2 p q := ⟨i 0, i 1, eq_ix2 i⟩
  simp only [Host.dotGeneral]
  exact Cert.Lib.dotGeneral_plain_apply (M := 100000) (K := 64) (N := 64) dot_S100000x64_S64x64_S100000x64_1_0_0_1_n_n.wf none _ x w p q

theorem dense_64_32 (x : FVec Ideal S256x64 .f32) (w : FVec Ideal S64x32 .f32) :
    Host.dotGeneral dot_S256x64_S64x32_S256x32_1_0_0_1_n_n none x w = Cert.Spec.dense 256 64 32 x w := by
  funext i
  obtain ⟨p, q, rfl⟩ : ∃ (p : Fin 256) (q : Fin 32), i = ix2 p q := ⟨i 0, i 1, eq_ix2 i⟩
  simp only [Host.dotGeneral]
  exact Cert.Lib.dotGeneral_plain_apply (M := 256) (K := 64) (N := 32) dot_S256x64_S64x32_S256x32_1_0_0_1_n_n.wf none _ x w p q

theorem dense_32_2 (x : FVec Ideal S256x32 .f32) (w : FVec Ideal S32x2 .f32) :
    Host.dotGeneral dot_S256x32_S32x2_S256x2_1_0_0_1_n_n none x w = Cert.Spec.dense 256 32 2 x w := by
  funext i
  obtain ⟨p, q, rfl⟩ : ∃ (p : Fin 256) (q : Fin 2), i = ix2 p q := ⟨i 0, i 1, eq_ix2 i⟩
  simp only [Host.dotGeneral]
  exact Cert.Lib.dotGeneral_plain_apply (M := 256) (K := 32) (N := 2) dot_S256x32_S32x2_S256x2_1_0_0_1_n_n.wf none _ x w p q

/-! ## The layer combination -/

/-- A per-feature vector repeated down every column of the node-by-feature array. -/
def downRows (x : FVec Ideal S64 .f32) : FVec Ideal S100000x64 .f32 :=
  broadcastInDim S100000x64 ![0, 1] bcast_S1x64_S100000x64_0_1 (broadcastInDim S1x64 ![1] bcast_S64_S1x64_1 x)

/-- A per-node vector repeated along every row of the node-by-feature array. -/
def alongCols (x : FVec Ideal S100000 .f32) : FVec Ideal S100000x64 .f32 :=
  broadcastInDim S100000x64 ![0, 1] bcast_S100000x1_S100000x64_0_1 (broadcastInDim S100000x1 ![0] bcast_S100000_S100000x1_0 x)

theorem downRows_apply (x : FVec Ideal S64 .f32) (p : Fin 100000) (q : Fin 64) : downRows x (ix2 p q) = x (ix1 q) := by
  unfold downRows
  rw [Cert.Lib.broadcastInDim_1b_ab_apply, Cert.Lib.broadcastInDim_b_1b_apply]

theorem alongCols_apply (x : FVec Ideal S100000 .f32) (p : Fin 100000) (q : Fin 64) : alongCols x (ix2 p q) = x (ix1 p) := by
  unfold alongCols
  rw [Cert.Lib.broadcastInDim_a1_ab_apply, Cert.Lib.broadcastInDim_a_a1_apply]

/-- One layer after the aggregation, as the reference computes it, of the arrays it reads: the aggregated messages,
    the transformed features, the self-loop weights, and the bias, scale, shift, running mean and running variance. -/
def combine (agg h : FVec Ideal S100000x64 .f32) (sn : FVec Ideal S100000 .f32) (b g be rm rv : FVec Ideal S64 .f32) :
    FVec Ideal S100000x64 .f32 :=
  maximumf
    (addf (mulf (mulf (subf (addf (addf agg (mulf h (alongCols sn))) (downRows b)) (downRows rm))
        (downRows (Host.rsqrt (addf rv (broadcastInDim S64 ![] bcast_S_S64 (constant S_ .f32 0x3727C5AC#32))))))
      (downRows g)) (downRows be))
    (broadcastInDim S100000x64 ![] bcast_S_S100000x64 (constant S_ .f32 0x00000000#32))

/-- The reference's layer is the specification's, with the weight vector as a column and the parameters as rows. -/
theorem combine_eq (agg h : FVec Ideal S100000x64 .f32) (sn : FVec Ideal S100000 .f32) (b g be rm rv : FVec Ideal S64 .f32)
    (hcol : S100000.ShapeCasts S100000x1) (hrow : S64.ShapeCasts S1x64) :
    combine agg h sn b g be rm rv
      = Cert.Spec.combine 100000 64 eps zero agg h (shapeCast S100000x1 sn hcol) (shapeCast S1x64 b hrow)
          (shapeCast S1x64 g hrow) (shapeCast S1x64 be hrow) (shapeCast S1x64 rm hrow) (shapeCast S1x64 rv hrow) := by
  funext i
  obtain ⟨p, q, rfl⟩ : ∃ (p : Fin 100000) (q : Fin 64), i = ix2 p q := ⟨i 0, i 1, eq_ix2 i⟩
  unfold combine Cert.Spec.combine
  show max ((((agg (ix2 p q) + h (ix2 p q) * alongCols sn (ix2 p q)) + downRows b (ix2 p q)) - downRows rm (ix2 p q))
          * downRows (Host.rsqrt (addf rv (broadcastInDim S64 ![] bcast_S_S64 (constant S_ .f32 0x3727C5AC#32)))) (ix2 p q)
          * downRows g (ix2 p q) + downRows be (ix2 p q))
        (broadcastInDim S100000x64 ![] bcast_S_S100000x64 (constant (F := Ideal) S_ .f32 0x00000000#32) (ix2 p q))
      = max ((((agg (ix2 p q) + h (ix2 p q) * shapeCast S100000x1 sn hcol (ix2 p (0 : Fin 1)))
              + shapeCast S1x64 b hrow (ix2 (0 : Fin 1) q)) - shapeCast S1x64 rm hrow (ix2 (0 : Fin 1) q))
          * Ideal.rsqrt (shapeCast S1x64 rv hrow (ix2 (0 : Fin 1) q) + eps)
          * shapeCast S1x64 g hrow (ix2 (0 : Fin 1) q) + shapeCast S1x64 be hrow (ix2 (0 : Fin 1) q)) zero
  rw [alongCols_apply, downRows_apply, downRows_apply, downRows_apply, downRows_apply, downRows_apply,
    Cert.Lib.broadcastInDim_scalar_apply, Cert.Lib.shapeCast_a_a1_apply, shapeCast_a_1a_apply, shapeCast_a_1a_apply,
    shapeCast_a_1a_apply, shapeCast_a_1a_apply, shapeCast_a_1a_apply]
  show max (_ * Ideal.rsqrt (rv (ix1 q) + broadcastInDim S64 ![] bcast_S_S64 (constant (F := Ideal) S_ .f32 0x3727C5AC#32) (ix1 q)) * _ + _) _ = _
  rw [Cert.Lib.broadcastInDim_scalar_apply]
  rfl

/-! ## The head -/

/-- A per-output vector repeated down every column. -/
def downRows32 (x : FVec Ideal S32 .f32) : FVec Ideal S256x32 .f32 :=
  broadcastInDim S256x32 ![0, 1] bcast_S1x32_S256x32_0_1 (broadcastInDim S1x32 ![1] bcast_S32_S1x32_1 x)
def downRows2 (x : FVec Ideal S2 .f32) : FVec Ideal S256x2 .f32 :=
  broadcastInDim S256x2 ![0, 1] bcast_S1x2_S256x2_0_1 (broadcastInDim S1x2 ![1] bcast_S2_S1x2_1 x)

theorem downRows32_apply (x : FVec Ideal S32 .f32) (p : Fin 256) (q : Fin 32) : downRows32 x (ix2 p q) = x (ix1 q) := by
  unfold downRows32
  rw [Cert.Lib.broadcastInDim_1b_ab_apply, Cert.Lib.broadcastInDim_b_1b_apply]
theorem downRows2_apply (x : FVec Ideal S2 .f32) (p : Fin 256) (q : Fin 2) : downRows2 x (ix2 p q) = x (ix1 q) := by
  unfold downRows2
  rw [Cert.Lib.broadcastInDim_1b_ab_apply, Cert.Lib.broadcastInDim_b_1b_apply]

/-- The hidden layer as the reference computes it. -/
def hidden (pooled : FVec Ideal S256x64 .f32) (w1 : FVec Ideal S64x32 .f32) (b1 : FVec Ideal S32 .f32) : FVec Ideal S256x32 .f32 :=
  maximumf (addf (Host.dotGeneral dot_S256x64_S64x32_S256x32_1_0_0_1_n_n none pooled w1) (downRows32 b1))
    (broadcastInDim S256x32 ![] bcast_S_S256x32 (constant S_ .f32 0x00000000#32))

theorem hidden_eq (pooled : FVec Ideal S256x64 .f32) (w1 : FVec Ideal S64x32 .f32) (b1 : FVec Ideal S32 .f32)
    (hrow : S32.ShapeCasts S1x32) :
    hidden pooled w1 b1 = Cert.Spec.hidden 256 64 32 zero pooled w1 (shapeCast S1x32 b1 hrow) := by
  funext j
  obtain ⟨p, q, rfl⟩ : ∃ (p : Fin 256) (q : Fin 32), j = ix2 p q := ⟨j 0, j 1, eq_ix2 j⟩
  unfold hidden Cert.Spec.hidden
  rw [dense_64_32]
  show max (Cert.Spec.dense 256 64 32 pooled w1 (ix2 p q) + downRows32 b1 (ix2 p q))
      (broadcastInDim S256x32 ![] bcast_S_S256x32 (constant (F := Ideal) S_ .f32 0x00000000#32) (ix2 p q))
    = max (Cert.Spec.dense 256 64 32 pooled w1 (ix2 p q) + shapeCast S1x32 b1 hrow (ix2 (0 : Fin 1) q)) zero
  rw [downRows32_apply, Cert.Lib.broadcastInDim_scalar_apply, shapeCast_a_1a_apply]
  rfl

/-- The head as the reference computes it: the logistic function spelt out. -/
def head (pooled : FVec Ideal S256x64 .f32) (w1 : FVec Ideal S64x32 .f32) (b1 : FVec Ideal S32 .f32)
    (w2 : FVec Ideal S32x2 .f32) (b2 : FVec Ideal S2 .f32) : FVec Ideal S256x2 .f32 :=
  Host.divf (broadcastInDim S256x2 ![] bcast_S_S256x2 (constant S_ .f32 0x3F800000#32))
    (addf (broadcastInDim S256x2 ![] bcast_S_S256x2 (constant S_ .f32 0x3F800000#32))
      (Host.exp (Host.negf (addf (Host.dotGeneral dot_S256x32_S32x2_S256x2_1_0_0_1_n_n none (hidden pooled w1 b1) w2) (downRows2 b2)))))

theorem head_eq (pooled : FVec Ideal S256x64 .f32) (w1 : FVec Ideal S64x32 .f32) (b1 : FVec Ideal S32 .f32)
    (w2 : FVec Ideal S32x2 .f32) (b2 : FVec Ideal S2 .f32) (hrow1 : S32.ShapeCasts S1x32) (hrow2 : S2.ShapeCasts S1x2) :
    head pooled w1 b1 w2 b2
      = Cert.Spec.head 256 64 32 2 zero pooled w1 (shapeCast S1x32 b1 hrow1) w2 (shapeCast S1x2 b2 hrow2) := by
  funext i
  obtain ⟨p, q, rfl⟩ : ∃ (p : Fin 256) (q : Fin 2), i = ix2 p q := ⟨i 0, i 1, eq_ix2 i⟩
  unfold head Cert.Spec.head
  rw [dense_32_2, hidden_eq pooled w1 b1 hrow1]
  show Ideal.div (broadcastInDim S256x2 ![] bcast_S_S256x2 (constant (F := Ideal) S_ .f32 0x3F800000#32) (ix2 p q))
      (broadcastInDim S256x2 ![] bcast_S_S256x2 (constant (F := Ideal) S_ .f32 0x3F800000#32) (ix2 p q)
        + Ideal.exp (-(Cert.Spec.dense 256 32 2 (Cert.Spec.hidden 256 64 32 zero pooled w1 (shapeCast S1x32 b1 hrow1)) w2 (ix2 p q)
            + downRows2 b2 (ix2 p q))))
    = Ideal.logistic (Cert.Spec.dense 256 32 2 (Cert.Spec.hidden 256 64 32 zero pooled w1 (shapeCast S1x32 b1 hrow1)) w2 (ix2 p q)
        + shapeCast S1x2 b2 hrow2 (ix2 (0 : Fin 1) q))
  rw [Cert.Lib.broadcastInDim_scalar_apply, downRows2_apply, shapeCast_a_1a_apply]
  show Ideal.div (Ideal.ofBits .f32 0x3F800000#32) (Ideal.ofBits .f32 0x3F800000#32 + _) = _
  rw [Ideal.ofBits_one_f32]
  rfl

end Cert.ReferenceIdeal.Stage

end
-- ==== Proof.KFoldA.lean ====
/-
  The contents of the kernel program's buffers through its first layer, read against the reference's values.

  The program's memory after each of its twelve segments is a fold from the launch memory. Here the fold is walked
  from the launch to the end of the second dense region: the first stretch of host operations computes the source
  and destination lists, the edge weights and the self-loop weights exactly as the reference does; the first dense
  region leaves the reference's first matrix product; the second stretch gathers, scales and sums the messages with
  the reference's own operations and lays the parameters out as rows and the self-loop weights as a column; the
  first combine region leaves the reference's first layer; the second dense region the second matrix product.
  A buffer no operation of a stretch writes, and no region has as its output, holds what it held before.
-/
import proofs.«181545_j70549132804339_1_alg».proof.Proof.Gen.KernelIdeal.Frame
import proofs.«181545_j70549132804339_1_alg».proof.Proof.KDense0
import proofs.«181545_j70549132804339_1_alg».proof.Proof.KCombine1
import proofs.«181545_j70549132804339_1_alg».proof.Proof.KDense2
import proofs.«181545_j70549132804339_1_alg».proof.Proof.RStages
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- A buffer that no operation of a stretch writes holds after the stretch what it held before. -/
macro "untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments, where they are read -/

theorem arg0_at1 : W1 m ρ c (Proc.devRef .tc main_arg0) = (m ((c : Thread nD τ).loc main_arg0)) :=
  (show W1 m ρ c (Proc.devRef .tc main_arg0) = W0 m ρ c (Proc.devRef .tc main_arg0) from (by untouched hostOps0))
theorem arg3_at1 : W1 m ρ c (Proc.devRef .tc main_arg3) = (m ((c : Thread nD τ).loc main_arg3)) :=
  (show W1 m ρ c (Proc.devRef .tc main_arg3) = W0 m ρ c (Proc.devRef .tc main_arg3) from (by untouched hostOps0))
theorem arg4_at2 : W2 m ρ c (Proc.devRef .tc main_arg4) = (m ((c : Thread nD τ).loc main_arg4)) :=
  ((show W2 m ρ c (Proc.devRef .tc main_arg4) = W1 m ρ c (Proc.devRef .tc main_arg4) from (W2_of_ne m ρ c main_arg4 (by decide))).trans (show W1 m ρ c (Proc.devRef .tc main_arg4) = W0 m ρ c (Proc.devRef .tc main_arg4) from (by untouched hostOps0)))
theorem arg5_at2 : W2 m ρ c (Proc.devRef .tc main_arg5) = (m ((c : Thread nD τ).loc main_arg5)) :=
  ((show W2 m ρ c (Proc.devRef .tc main_arg5) = W1 m ρ c (Proc.devRef .tc main_arg5) from (W2_of_ne m ρ c main_arg5 (by decide))).trans (show W1 m ρ c (Proc.devRef .tc main_arg5) = W0 m ρ c (Proc.devRef .tc main_arg5) from (by untouched hostOps0)))
theorem arg6_at2 : W2 m ρ c (Proc.devRef .tc main_arg6) = (m ((c : Thread nD τ).loc main_arg6)) :=
  ((show W2 m ρ c (Proc.devRef .tc main_arg6) = W1 m ρ c (Proc.devRef .tc main_arg6) from (W2_of_ne m ρ c main_arg6 (by decide))).trans (show W1 m ρ c (Proc.devRef .tc main_arg6) = W0 m ρ c (Proc.devRef .tc main_arg6) from (by untouched hostOps0)))
theorem arg7_at2 : W2 m ρ c (Proc.devRef .tc main_arg7) = (m ((c : Thread nD τ).loc main_arg7)) :=
  ((show W2 m ρ c (Proc.devRef .tc main_arg7) = W1 m ρ c (Proc.devRef .tc main_arg7) from (W2_of_ne m ρ c main_arg7 (by decide))).trans (show W1 m ρ c (Proc.devRef .tc main_arg7) = W0 m ρ c (Proc.devRef .tc main_arg7) from (by untouched hostOps0)))
theorem arg8_at2 : W2 m ρ c (Proc.devRef .tc main_arg8) = (m ((c : Thread nD τ).loc main_arg8)) :=
  ((show W2 m ρ c (Proc.devRef .tc main_arg8) = W1 m ρ c (Proc.devRef .tc main_arg8) from (W2_of_ne m ρ c main_arg8 (by decide))).trans (show W1 m ρ c (Proc.devRef .tc main_arg8) = W0 m ρ c (Proc.devRef .tc main_arg8) from (by untouched hostOps0)))
theorem arg9_at4 : W4 m ρ c (Proc.devRef .tc main_arg9) = (m ((c : Thread nD τ).loc main_arg9)) :=
  ((show W4 m ρ c (Proc.devRef .tc main_arg9) = W3 m ρ c (Proc.devRef .tc main_arg9) from (W4_of_ne m ρ c main_arg9 (by decide))).trans ((show W3 m ρ c (Proc.devRef .tc main_arg9) = W2 m ρ c (Proc.devRef .tc main_arg9) from (by untouched hostOps1)).trans ((show W2 m ρ c (Proc.devRef .tc main_arg9) = W1 m ρ c (Proc.devRef .tc main_arg9) from (W2_of_ne m ρ c main_arg9 (by decide))).trans (show W1 m ρ c (Proc.devRef .tc main_arg9) = W0 m ρ c (Proc.devRef .tc main_arg9) from (by untouched hostOps0)))))

/-! ## The first stretch: the graph's lists and weights -/

theorem v1_at1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  simp only [hostOps0]
  after_results_simp
  rfl
theorem v3_at1 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  simp only [hostOps0]
  after_results_simp
  rfl
theorem v25_at1 : W1 m ρ c (Proc.devRef .tc main_v25) = (Cert.ReferenceIdeal.Read.val_main_v25 (F := Ideal) (m ((c : Thread nD τ).loc main_arg1))) := by
  show StableHlo.after hostOps0 (W0 m ρ c) (Proc.devRef .tc main_v25) = _
  simp only [hostOps0]
  after_results_simp
  rfl
theorem v26_at1 : W1 m ρ c (Proc.devRef .tc main_v26) = (Cert.ReferenceIdeal.Read.val_main_v26 (F := Ideal) (m ((c : Thread nD τ).loc main_arg1))) := by
  show StableHlo.after hostOps0 (W0 m ρ c) (Proc.devRef .tc main_v26) = _
  simp only [hostOps0]
  after_results_simp
  rfl
theorem v1_at2 : W2 m ρ c (Proc.devRef .tc main_v1) = (Cert.ReferenceIdeal.Read.val_main_v1 (F := Ideal) (m ((c : Thread nD τ).loc main_arg1))) :=
  (show W2 m ρ c (Proc.devRef .tc main_v1) = W1 m ρ c (Proc.devRef .tc main_v1) from (W2_of_ne m ρ c main_v1 (by decide))).trans (v1_at1 m ρ c)
theorem v3_at2 : W2 m ρ c (Proc.devRef .tc main_v3) = (Cert.ReferenceIdeal.Read.val_main_v3 (F := Ideal) (m ((c : Thread nD τ).loc main_arg1))) :=
  (show W2 m ρ c (Proc.devRef .tc main_v3) = W1 m ρ c (Proc.devRef .tc main_v3) from (W2_of_ne m ρ c main_v3 (by decide))).trans (v3_at1 m ρ c)
theorem v25_at2 : W2 m ρ c (Proc.devRef .tc main_v25) = (Cert.ReferenceIdeal.Read.val_main_v25 (F := Ideal) (m ((c : Thread nD τ).loc main_arg1))) :=
  (show W2 m ρ c (Proc.devRef .tc main_v25) = W1 m ρ c (Proc.devRef .tc main_v25) from (W2_of_ne m ρ c main_v25 (by decide))).trans (v25_at1 m ρ c)
theorem v26_at2 : W2 m ρ c (Proc.devRef .tc main_v26) = (Cert.ReferenceIdeal.Read.val_main_v26 (F := Ideal) (m ((c : Thread nD τ).loc main_arg1))) :=
  (show W2 m ρ c (Proc.devRef .tc main_v26) = W1 m ρ c (Proc.devRef .tc main_v26) from (W2_of_ne m ρ c main_v26 (by decide))).trans (v26_at1 m ρ c)
theorem v1_at5 : W5 m ρ c (Proc.devRef .tc main_v1) = (Cert.ReferenceIdeal.Read.val_main_v1 (F := Ideal) (m ((c : Thread nD τ).loc main_arg1))) :=
  ((show W5 m ρ c (Proc.devRef .tc main_v1) = W4 m ρ c (Proc.devRef .tc main_v1) from (W5_of_ne m ρ c main_v1 (by decide))).trans ((show W4 m ρ c (Proc.devRef .tc main_v1) = W3 m ρ c (Proc.devRef .tc main_v1) from (W4_of_ne m ρ c main_v1 (by decide))).trans (show W3 m ρ c (Proc.devRef .tc main_v1) = W2 m ρ c (Proc.devRef .tc main_v1) from (by untouched hostOps1)))).trans (v1_at2 m ρ c)
theorem v3_at5 : W5 m ρ c (Proc.devRef .tc main_v3) = (Cert.ReferenceIdeal.Read.val_main_v3 (F := Ideal) (m ((c : Thread nD τ).loc main_arg1))) :=
  ((show W5 m ρ c (Proc.devRef .tc main_v3) = W4 m ρ c (Proc.devRef .tc main_v3) from (W5_of_ne m ρ c main_v3 (by decide))).trans ((show W4 m ρ c (Proc.devRef .tc main_v3) = W3 m ρ c (Proc.devRef .tc main_v3) from (W4_of_ne m ρ c main_v3 (by decide))).trans (show W3 m ρ c (Proc.devRef .tc main_v3) = W2 m ρ c (Proc.devRef .tc main_v3) from (by untouched hostOps1)))).trans (v3_at2 m ρ c)
theorem v25_at5 : W5 m ρ c (Proc.devRef .tc main_v25) = (Cert.ReferenceIdeal.Read.val_main_v25 (F := Ideal) (m ((c : Thread nD τ).loc main_arg1))) :=
  ((show W5 m ρ c (Proc.devRef .tc main_v25) = W4 m ρ c (Proc.devRef .tc main_v25) from (W5_of_ne m ρ c main_v25 (by decide))).trans ((show W4 m ρ c (Proc.devRef .tc main_v25) = W3 m ρ c (Proc.devRef .tc main_v25) from (W4_of_ne m ρ c main_v25 (by decide))).trans (show W3 m ρ c (Proc.devRef .tc main_v25) = W2 m ρ c (Proc.devRef .tc main_v25) from (by untouched hostOps1)))).trans (v25_at2 m ρ c)
theorem v26_at5 : W5 m ρ c (Proc.devRef .tc main_v26) = (Cert.ReferenceIdeal.Read.val_main_v26 (F := Ideal) (m ((c : Thread nD τ).loc main_arg1))) :=
  ((show W5 m ρ c (Proc.devRef .tc main_v26) = W4 m ρ c (Proc.devRef .tc main_v26) from (W5_of_ne m ρ c main_v26 (by decide))).trans ((show W4 m ρ c (Proc.devRef .tc main_v26) = W3 m ρ c (Proc.devRef .tc main_v26) from (W4_of_ne m ρ c main_v26 (by decide))).trans (show W3 m ρ c (Proc.devRef .tc main_v26) = W2 m ρ c (Proc.devRef .tc main_v26) from (by untouched hostOps1)))).trans (v26_at2 m ρ c)

/-! ## The first layer -/

/-- After the first dense region its output array holds the reference's first matrix product. -/
theorem v27_at2 : W2 m ρ c (Proc.devRef .tc main_v27) = (Cert.ReferenceIdeal.Read.val_main_v27 (F := Ideal) (m ((c : Thread nD τ).loc main_arg0)) (m ((c : Thread nD τ).loc main_arg3))) :=
  (W2_arr m ρ c 2).trans (((Dense0.value (V1 m ρ) c).trans
    (congrArg₂ (Cert.Spec.dense 100000 5 64) (arg0_at1 m ρ c) (arg3_at1 m ρ c))).trans
    (Cert.ReferenceIdeal.Stage.dense_5_64 _ _).symm)
theorem v27_at3 : W3 m ρ c (Proc.devRef .tc main_v27) = (Cert.ReferenceIdeal.Read.val_main_v27 (F := Ideal) (m ((c : Thread nD τ).loc main_arg0)) (m ((c : Thread nD τ).loc main_arg3))) :=
  (show W3 m ρ c (Proc.devRef .tc main_v27) = W2 m ρ c (Proc.devRef .tc main_v27) from (by untouched hostOps1)).trans (v27_at2 m ρ c)
theorem v40_at3 : W3 m ρ c (Proc.devRef .tc main_v40) = (Cert.ReferenceIdeal.Read.val_main_v40 (F := Ideal) (m ((c : Thread nD τ).loc main_arg0)) (m ((c : Thread nD τ).loc main_arg1)) (m ((c : Thread nD τ).loc main_arg3))) := by
  show StableHlo.after hostOps1 (W2 m ρ c) (Proc.devRef .tc main_v40) = _
  simp only [hostOps1]
  after_results_simp
  rw [v27_at2 m ρ c, v1_at2 m ρ c, v3_at2 m ρ c, v25_at2 m ρ c]
  rfl
theorem v46_at3 : W3 m ρ c (Proc.devRef .tc main_v46) = shapeCast S100000x1 (Cert.ReferenceIdeal.Read.val_main_v26 (F := Ideal) (m ((c : Thread nD τ).loc main_arg1))) shapeCasts_S100000_S100000x1 := by
  show StableHlo.after hostOps1 (W2 m ρ c) (Proc.devRef .tc main_v46) = _
  simp only [hostOps1]
  after_results_simp
  rw [v26_at2 m ρ c]
  rfl
theorem v41_at3 : W3 m ρ c (Proc.devRef .tc main_v41) = shapeCast S1x64 (m ((c : Thread nD τ).loc main_arg4)) shapeCasts_S64_S1x64 := by
  show StableHlo.after hostOps1 (W2 m ρ c) (Proc.devRef .tc main_v41) = _
  simp only [hostOps1]
  after_results_simp
  rw [arg4_at2 m ρ c]
  rfl
theorem v42_at3 : W3 m ρ c (Proc.devRef .tc main_v42) = shapeCast S1x64 (m ((c : Thread nD τ).loc main_arg5)) shapeCasts_S64_S1x64 := by
  show StableHlo.after hostOps1 (W2 m ρ c) (Proc.devRef .tc main_v42) = _
  simp only [hostOps1]
  after_results_simp
  rw [arg5_at2 m ρ c]
  rfl
theorem v43_at3 : W3 m ρ c (Proc.devRef .tc main_v43) = shapeCast S1x64 (m ((c : Thread nD τ).loc main_arg6)) shapeCasts_S64_S1x64 := by
  show StableHlo.after hostOps1 (W2 m ρ c) (Proc.devRef .tc main_v43) = _
  simp only [hostOps1]
  after_results_simp
  rw [arg6_at2 m ρ c]
  rfl
theorem v44_at3 : W3 m ρ c (Proc.devRef .tc main_v44) = shapeCast S1x64 (m ((c : Thread nD τ).loc main_arg7)) shapeCasts_S64_S1x64 := by
  show StableHlo.after hostOps1 (W2 m ρ c) (Proc.devRef .tc main_v44) = _
  simp only [hostOps1]
  after_results_simp
  rw [arg7_at2 m ρ c]
  rfl
theorem v45_at3 : W3 m ρ c (Proc.devRef .tc main_v45) = shapeCast S1x64 (m ((c : Thread nD τ).loc main_arg8)) shapeCasts_S64_S1x64 := by
  show StableHlo.after hostOps1 (W2 m ρ c) (Proc.devRef .tc main_v45) = _
  simp only [hostOps1]
  after_results_simp
  rw [arg8_at2 m ρ c]
  rfl
/-- After the first combine region its output array holds the reference's first layer. -/
theorem v47_at4 : W4 m ρ c (Proc.devRef .tc main_v47) = (Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 8).trans ((Combine1.value (V3 m ρ) c).trans ?_)
  rw [show V3 m ρ c main_v40 = _ from v40_at3 m ρ c,
    show V3 m ρ c main_v27 = _ from v27_at3 m ρ c,
    show V3 m ρ c main_v46 = _ from v46_at3 m ρ c,
    show V3 m ρ c main_v41 = _ from v41_at3 m ρ c,
    show V3 m ρ c main_v42 = _ from v42_at3 m ρ c,
    show V3 m ρ c main_v43 = _ from v43_at3 m ρ c,
    show V3 m ρ c main_v44 = _ from v44_at3 m ρ c,
    show V3 m ρ c main_v45 = _ from v45_at3 m ρ c]
  exact (Cert.ReferenceIdeal.Stage.combine_eq _ _ _ _ _ _ _ _ shapeCasts_S100000_S100000x1 shapeCasts_S64_S1x64).symm
/-- After the second dense region its output array holds the reference's second matrix product. -/
theorem v48_at5 : W5 m ρ c (Proc.devRef .tc main_v48) = (Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W5_arr m ρ c 2).trans (((Dense2.value (V4 m ρ) c).trans
    (congrArg₂ (Cert.Spec.dense 100000 64 64) (v47_at4 m ρ c) (arg9_at4 m ρ c))).trans
    (Cert.ReferenceIdeal.Stage.dense_64_64 _ _).symm)

end Cert.KernelIdeal.Whole

end
-- ==== Proof.KCombine3.lean ====
/-
  What the second combine region of the kernel leaves in its output array: the layer's combination, normalisation and
  positive part of its eight input arrays as the region finds them, entry by entry.

  The region walks the 100000 rows in 20 blocks of 5000. At grid point t it loads rows 5000·t … 5000·t + 4999 of the
  aggregated messages, of the node features and of the column of self-loop weights, and the five one-row parameter
  arrays whole. Every operation of the body is entrywise once the column has been repeated along each row and each
  parameter row down each column, so the block's entry (p, q) is a function of the aggregated message and the feature
  at (p, q), the weight of row p and the parameters of column q; it is written back as row 5000·t + p. An entry
  (r, q) of the output lies in the block of point r / 5000 and nowhere else.
-/
import proofs.«181545_j70549132804339_1_alg».proof.Proof.Gen.KernelIdeal.Frame
import proofs.«181545_j70549132804339_1_alg».proof.Proof.LibColumn
import proofs.«181545_j70549132804339_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine3

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The small constant added to the running variance, and zero, as the body spells them. -/
abbrev eps : EReal := Ideal.ofBits .f32 0x3727C5AC#32
abbrev zero : EReal := Ideal.ofBits .f32 0x00000000#32

/-- The body's stored value at (p, q) of the block, from the loaded blocks: the operands in the order the body loads
    them are the messages, the features, the weight column, the bias, the running mean, the running variance, the
    scale and the shift. -/
theorem payload_apply (v0 v2 : Vec Ideal S5000x64 .f32) (v4 : Vec Ideal S5000x1 .f32)
    (v9 v13 v17 v24 v28 : Vec Ideal S1x64 .f32) (p : Fin 5000) (q : Fin 64) :
    k3_pay1 (F := Ideal) v0 v2 v4 v9 v13 v17 v24 v28 (ix2 p q)
      = Cert.Spec.combine 5000 64 eps zero v0 v2 v4 v9 v24 v28 v13 v17 (ix2 p q) := by
  unfold k3_pay1
  simp only [shapeCast_self]
  show max ((((v0 (ix2 p q) + v2 (ix2 p q) * broadcastTo S5000x64 v4 broadcasts_S5000x1_S5000x64 (ix2 p q))
                + broadcastTo S5000x64 v9 broadcasts_S1x64_S5000x64 (ix2 p q))
              - broadcastTo S5000x64 v13 broadcasts_S1x64_S5000x64 (ix2 p q))
            * broadcastTo S5000x64 (fun i => Ideal.rsqrt (v17 i + eps)) broadcasts_S1x64_S5000x64 (ix2 p q)
            * broadcastTo S5000x64 v24 broadcasts_S1x64_S5000x64 (ix2 p q)
          + broadcastTo S5000x64 v28 broadcasts_S1x64_S5000x64 (ix2 p q)) zero = _
  rw [Cert.Lib.broadcastTo_a1_ab_apply, broadcastTo_1b_ab_apply, broadcastTo_1b_ab_apply, broadcastTo_1b_ab_apply,
    broadcastTo_1b_ab_apply, broadcastTo_1b_ab_apply]
  rfl

/-- Where the nine windows sit at grid point t: the two feature windows, the weight column and the output are at
    the t-th row block, the five parameter rows are whole. -/
theorem blocks_at : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- Every row block is some grid point's. -/
theorem block_of_row : ∀ q0 : Fin 20, ∃ t : Fin cfg3.N, win3_8.index t = ![q0.val, 0] :=
  (by decide +kernel : ∀ q0 : Fin 20, ∃ t : Fin grid3.N, win3_8.index t = ![q0.val, 0])

/-! Where a block entry sits in its array: a window's block at point t starts at its block index times the block's
    extent on each axis. -/

theorem entry_0 (t : Fin cfg3.N) (p : Fin 5000) (q : Fin 64) :
    ((cfg3.win 0).blk t).view.emb (ix2 p q) = ((cfg3.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win3_0.index t (0 : Fin 2) * 5000 + 1 * p.val = win3_8.index t (0 : Fin 2) * 5000 + 1 * p.val; omega
  | ⟨1, _⟩ => show win3_0.index t (1 : Fin 2) * 64 + 1 * q.val = win3_8.index t (1 : Fin 2) * 64 + 1 * q.val; omega
theorem entry_1 (t : Fin cfg3.N) (p : Fin 5000) (q : Fin 64) :
    ((cfg3.win 1).blk t).view.emb (ix2 p q) = ((cfg3.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win3_1.index t (0 : Fin 2) * 5000 + 1 * p.val = win3_8.index t (0 : Fin 2) * 5000 + 1 * p.val; omega
  | ⟨1, _⟩ => show win3_1.index t (1 : Fin 2) * 64 + 1 * q.val = win3_8.index t (1 : Fin 2) * 64 + 1 * q.val; omega
theorem entry_2 (t : Fin cfg3.N) (p : Fin 5000) (q : Fin 64) :
    ((cfg3.win 2).blk t).view.emb (ix2 p (0 : Fin 1)) = ix2 (n0 := 100000) (n1 := 1) (((cfg3.win 8).blk t).view.emb (ix2 p q) 0) 0 := by
  obtain ⟨e00, e01, e10, e11, e20, e21, e30, e31, e40, e41, e50, e51, e60, e61, e70, e71, e80, e81⟩ := blocks_at t
  funext a; apply Fin.ext
  match a with
  | ⟨0, _⟩ => show win3_2.index t (0 : Fin 2) * 5000 + 1 * p.val = win3_8.index t (0 : Fin 2) * 5000 + 1 * p.val; omega
  | ⟨1, _⟩ => show win3_2.index t (1 : Fin 2) * 1 + 1 * 0 = 0; omega
theorem entry_3 (t : Fin cfg3.N) (p : Fin 5000) (q : Fin 64) :
    ((cfg3.win 3).blk t).view.emb (ix2 (0 : Fin 1) q) = ix2 (n0 := 1) (n1 := 64) 0 (((cfg3.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win3_3.index t (0 : Fin 2) * 1 + 1 * 0 = 0; omega
  | ⟨1, _⟩ => show win3_3.index t (1 : Fin 2) * 64 + 1 * q.val = win3_8.index t (1 : Fin 2) * 64 + 1 * q.val; omega
theorem entry_4 (t : Fin cfg3.N) (p : Fin 5000) (q : Fin 64) :
    ((cfg3.win 4).blk t).view.emb (ix2 (0 : Fin 1) q) = ix2 (n0 := 1) (n1 := 64) 0 (((cfg3.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win3_4.index t (0 : Fin 2) * 1 + 1 * 0 = 0; omega
  | ⟨1, _⟩ => show win3_4.index t (1 : Fin 2) * 64 + 1 * q.val = win3_8.index t (1 : Fin 2) * 64 + 1 * q.val; omega
theorem entry_5 (t : Fin cfg3.N) (p : Fin 5000) (q : Fin 64) :
    ((cfg3.win 5).blk t).view.emb (ix2 (0 : Fin 1) q) = ix2 (n0 := 1) (n1 := 64) 0 (((cfg3.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win3_5.index t (0 : Fin 2) * 1 + 1 * 0 = 0; omega
  | ⟨1, _⟩ => show win3_5.index t (1 : Fin 2) * 64 + 1 * q.val = win3_8.index t (1 : Fin 2) * 64 + 1 * q.val; omega
theorem entry_6 (t : Fin cfg3.N) (p : Fin 5000) (q : Fin 64) :
    ((cfg3.win 6).blk t).view.emb (ix2 (0 : Fin 1) q) = ix2 (n0 := 1) (n1 := 64) 0 (((cfg3.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win3_6.index t (0 : Fin 2) * 1 + 1 * 0 = 0; omega
  | ⟨1, _⟩ => show win3_6.index t (1 : Fin 2) * 64 + 1 * q.val = win3_8.index t (1 : Fin 2) * 64 + 1 * q.val; omega
theorem entry_7 (t : Fin cfg3.N) (p : Fin 5000) (q : Fin 64) :
    ((cfg3.win 7).blk t).view.emb (ix2 (0 : Fin 1) q) = ix2 (n0 := 1) (n1 := 64) 0 (((cfg3.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win3_7.index t (0 : Fin 2) * 1 + 1 * 0 = 0; omega
  | ⟨1, _⟩ => show win3_7.index t (1 : Fin 2) * 64 + 1 * q.val = win3_8.index t (1 : Fin 2) * 64 + 1 * q.val; omega

/-- What grid point t writes back is block t of the layer's combination of the eight input arrays. -/
theorem flushed_eq (c : Dev nD) (t : Fin cfg3.N) :
    (dat3 V c).flushed 8 t = ((cfg3.win 8).blk t).view.read (Elt Ideal)
      (Cert.Spec.combine 100000 64 eps zero (V c main_v61) (V c main_v48) (V c main_v67) (V c main_v62) (V c main_v63)
        (V c main_v64) (V c main_v65) (V c main_v66)) := by
  show (cfg3.win 8).cut (grid3.coords t) ((dat3 V c).after 8 t) = _
  rw [after3_8]
  unfold out3_8
  rw [View.canon_unit_zero origin]
  simp only [View.ld_unit_zero (S := S5000x64) origin, View.ld_unit_zero (S := S5000x1) origin,
    View.ld_unit_zero (S := S1x64) origin]
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 6 t) (iblk3 V c 7 t)
        (iblk3 V c 4 t) (iblk3 V c 5 t) (ix2 p q)
      = Cert.Spec.combine 100000 64 eps zero (V c main_v61) (V c main_v48) (V c main_v67) (V c main_v62) (V c main_v63)
        (V c main_v64) (V c main_v65) (V c main_v66) (((cfg3.win 8).blk t).view.emb (ix2 p q))
  rw [payload_apply]
  refine Cert.Spec.combine_congr eps zero _ _ _ _ _ _ _ _ _ _ _ _ _ _ _ _ _ _ ?_ ?_ ?_ ?_ ?_ ?_ ?_ ?_
  · exact (congrArg (V c main_v61) (entry_0 t p q) :)
  · exact (congrArg (V c main_v48) (entry_1 t p q) :)
  · exact (congrArg (V c main_v67) (entry_2 t p q) :)
  · exact (congrArg (V c main_v62) (entry_3 t p q) :)
  · exact (congrArg (V c main_v63) (entry_4 t p q) :)
  · exact (congrArg (V c main_v64) (entry_5 t p q) :)
  · exact (congrArg (V c main_v65) (entry_6 t p q) :)
  · exact (congrArg (V c main_v66) (entry_7 t p q) :)

/-- An index of the output array lies in point t's block iff each coordinate is in the block's range on its axis. -/
theorem mem_block (t : Fin cfg3.N) (i : S100000x64.Idx) :
    i ∈ ((cfg3.win 8).blk t).view.set ↔ ∀ a : Fin 2, win3_8.index t a * S5000x64.size a ≤ (i a).val
      ∧ (i a).val < win3_8.index t a * S5000x64.size a + S5000x64.size a := by
  show i ∈ ((View.whole main_v68).slice (win3_8.rect t)).set ↔ _
  rw [View.set_slice_whole, Rect.mem_set_unit]
  exact Iff.rfl

/-- Row r of the output lies in the block of grid point r / 5000. -/
theorem covered (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  obtain ⟨t, ht⟩ := block_of_row ⟨(i 0).val / 5000, by omega⟩
  have q0 : win3_8.index t (0 : Fin 2) = (i 0).val / 5000 := congrFun ht 0
  have q1 : win3_8.index t (1 : Fin 2) = 0 := congrFun ht 1
  refine ⟨t, flush3_8 t, ?_⟩
  rw [mem_block]
  intro a
  match a with
  | ⟨0, _⟩ =>
    show win3_8.index t (0 : Fin 2) * 5000 ≤ (i 0).val ∧ (i 0).val < win3_8.index t (0 : Fin 2) * 5000 + 5000
    omega
  | ⟨1, _⟩ =>
    show win3_8.index t (1 : Fin 2) * 64 ≤ (i 1).val ∧ (i 1).val < win3_8.index t (1 : Fin 2) * 64 + 64
    omega

/-- THE OUTPUT ARRAY after the region: the layer's combination of the eight input arrays as the region finds them. -/
theorem value (c : Dev nD) :
    (dat3 V c).arrAt 8 cfg3.N
      = Cert.Spec.combine 100000 64 eps zero (V c main_v61) (V c main_v48) (V c main_v67) (V c main_v62) (V c main_v63)
        (V c main_v64) (V c main_v65) (V c main_v66) :=
  (dat3 V c).arrAt_eq_of_cover 8 _ (fun t _ => flushed_eq V c t) covered

end Cert.KernelIdeal.Combine3

end
-- ==== Proof.KDense4.lean ====
/-
  What the third dense region of the kernel leaves in its output array: the matrix product of its two input arrays
  as the region finds them.

  The region walks the 100000 rows in 20 blocks of 5000. At grid point t it loads rows 5000·t … 5000·t + 4999 of the
  left operand (all 64 columns) and the whole 64 × 64 right operand, multiplies them into a zero accumulator (the
  narrowing of both operands to a shorter float format is the identity on the extended reals) and writes the
  5000 × 64 product back as rows 5000·t … 5000·t + 4999 of the output. An entry (r, q) of the output therefore lies in
  the block of point r / 5000 and nowhere else, and it holds the sum over k of left (r, k) · right (k, q).
-/
import proofs.«181545_j70549132804339_1_alg».proof.Proof.Gen.KernelIdeal.Frame
import proofs.«181545_j70549132804339_1_alg».proof.Proof.LibPlainDot
import proofs.«181545_j70549132804339_1_alg».proof.Proof.Spec
import Idealize.ShloMosaic.Lib.Pipeline.Value
import Idealize.ShloMosaic.Lib.ValueIdx

set_option maxRecDepth 16384

noncomputable section

namespace Cert.KernelIdeal.Dense4

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q) of the block: the sum over k of the loaded left block at (p, k) times the loaded
    right operand at (k, q). -/
theorem payload_apply (x0 : Vec Ideal S5000x64 .f32) (x1 : Vec Ideal S64x64 .f32) (p : Fin 5000) (q : Fin 64) :
    k4_pay1 (F := Ideal) x0 x1 (ix2 p q) = ∑ k : Fin 64, x0 (ix2 p k) * x1 (ix2 k q) := by
  unfold k4_pay1
  simp only [shapeCast_self]
  exact Cert.Lib.matmul_zero_apply (M := 5000) (K := 64) (N := 64) dot_S5000x64_S64x64_S5000x64_1_0_0_1_n_n.wf none _ _ p q

/-- Where the three windows sit at grid point t: the left operand's and the output's blocks are the t-th row blocks,
    the right operand's block is the whole array. -/
theorem blocks_at : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every row block is some grid point's. -/
theorem block_of_row : ∀ q0 : Fin 20, ∃ t : Fin cfg4.N, win4_2.index t = ![q0.val, 0] :=
  (by decide +kernel : ∀ q0 : Fin 20, ∃ t : Fin grid4.N, win4_2.index t = ![q0.val, 0])

/-- What grid point t writes back is block t of the matrix product of the two input arrays. -/
theorem flushed_eq (c : Dev nD) (t : Fin cfg4.N) :
    (dat4 V c).flushed 2 t = ((cfg4.win 2).blk t).view.read (Elt Ideal)
      (Cert.Spec.dense 100000 64 64 (V c main_v68) (V c main_arg15)) := by
  show (cfg4.win 2).cut (grid4.coords t) ((dat4 V c).after 2 t) = _
  rw [after4_2]
  unfold out4_2
  rw [View.canon_unit_zero origin]
  simp only [View.ld_unit_zero (S := S5000x64) origin, View.ld_unit_zero (S := S64x64) origin]
  obtain ⟨e0, e1, e2, e3, e4, e5⟩ := blocks_at t
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (ix2 p q)
      = Cert.Spec.dense 100000 64 64 (V c main_v68) (V c main_arg15) (((cfg4.win 2).blk t).view.emb (ix2 p q))
  rw [payload_apply]
  unfold Cert.Spec.dense
  refine Finset.sum_congr rfl fun k _ => ?_
  have hl : ((cfg4.win 0).blk t).view.emb (ix2 p k)
      = ix2 (n0 := 100000) (n1 := 64) ((((cfg4.win 2).blk t).view.emb (ix2 p q)) 0) k := by
    funext a; apply Fin.ext
    match a with
    | ⟨0, _⟩ =>
      show win4_0.index t (0 : Fin 2) * 5000 + 1 * p.val = win4_2.index t (0 : Fin 2) * 5000 + 1 * p.val
      omega
    | ⟨1, _⟩ =>
      show win4_0.index t (1 : Fin 2) * 64 + 1 * k.val = k.val
      omega
  have hr : ((cfg4.win 1).blk t).view.emb (ix2 k q)
      = ix2 (n0 := 64) (n1 := 64) k ((((cfg4.win 2).blk t).view.emb (ix2 p q)) 1) := by
    funext a; apply Fin.ext
    match a with
    | ⟨0, _⟩ =>
      show win4_1.index t (0 : Fin 2) * 64 + 1 * k.val = k.val
      omega
    | ⟨1, _⟩ =>
      show win4_1.index t (1 : Fin 2) * 64 + 1 * q.val = win4_2.index t (1 : Fin 2) * 64 + 1 * q.val
      omega
  exact congrArg₂ (fun x y : EReal => x * y) (congrArg (V c main_v68) hl) (congrArg (V c main_arg15) hr)

/-- An index of the output array lies in point t's block iff each coordinate is in the block's range on its axis. -/
theorem mem_block (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v69).slice (win4_2.rect t)).set ↔ _
  rw [View.set_slice_whole, Rect.mem_set_unit]
  exact Iff.rfl

/-- Row r of the output lies in the block of grid point r / 5000. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := block_of_row ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- THE OUTPUT ARRAY after the region: the matrix product of the two input arrays as the region finds them. -/
theorem value (c : Dev nD) :
    (dat4 V c).arrAt 2 cfg4.N = Cert.Spec.dense 100000 64 64 (V c main_v68) (V c main_arg15) :=
  (dat4 V c).arrAt_eq_of_cover 2 _ (fun t _ => flushed_eq V c t) covered

end Cert.KernelIdeal.Dense4

end
-- ==== Proof.KFoldB.lean ====
/-
  The contents of the kernel program's buffers through its second layer, read against the reference's values: the
  third stretch of host operations gathers, scales and sums the messages of the second matrix product with the
  reference's own operations; the second combine region leaves the reference's second layer; the third dense region
  the third matrix product.
-/
import proofs.«181545_j70549132804339_1_alg».proof.Proof.KFoldA
import proofs.«181545_j70549132804339_1_alg».proof.Proof.KCombine3
import proofs.«181545_j70549132804339_1_alg».proof.Proof.KDense4
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- A buffer that no operation of a stretch writes holds after the stretch what it held before. -/
macro "untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem arg10_at5 : W5 m ρ c (Proc.devRef .tc main_arg10) = (m ((c : Thread nD τ).loc main_arg10)) :=
  ((show W5 m ρ c (Proc.devRef .tc main_arg10) = W4 m ρ c (Proc.devRef .tc main_arg10) from (W5_of_ne m ρ c main_arg10 (by decide))).trans ((show W4 m ρ c (Proc.devRef .tc main_arg10) = W3 m ρ c (Proc.devRef .tc main_arg10) from (W4_of_ne m ρ c main_arg10 (by decide))).trans ((show W3 m ρ c (Proc.devRef .tc main_arg10) = W2 m ρ c (Proc.devRef .tc main_arg10) from (by untouched hostOps1)).trans ((show W2 m ρ c (Proc.devRef .tc main_arg10) = W1 m ρ c (Proc.devRef .tc main_arg10) from (W2_of_ne m ρ c main_arg10 (by decide))).trans (show W1 m ρ c (Proc.devRef .tc main_arg10) = W0 m ρ c (Proc.devRef .tc main_arg10) from (by untouched hostOps0))))))
theorem arg11_at5 : W5 m ρ c (Proc.devRef .tc main_arg11) = (m ((c : Thread nD τ).loc main_arg11)) :=
  ((show W5 m ρ c (Proc.devRef .tc main_arg11) = W4 m ρ c (Proc.devRef .tc main_arg11) from (W5_of_ne m ρ c main_arg11 (by decide))).trans ((show W4 m ρ c (Proc.devRef .tc main_arg11) = W3 m ρ c (Proc.devRef .tc main_arg11) from (W4_of_ne m ρ c main_arg11 (by decide))).trans ((show W3 m ρ c (Proc.devRef .tc main_arg11) = W2 m ρ c (Proc.devRef .tc main_arg11) from (by untouched hostOps1)).trans ((show W2 m ρ c (Proc.devRef .tc main_arg11) = W1 m ρ c (Proc.devRef .tc main_arg11) from (W2_of_ne m ρ c main_arg11 (by decide))).trans (show W1 m ρ c (Proc.devRef .tc main_arg11) = W0 m ρ c (Proc.devRef .tc main_arg11) from (by untouched hostOps0))))))
theorem arg12_at5 : W5 m ρ c (Proc.devRef .tc main_arg12) = (m ((c : Thread nD τ).loc main_arg12)) :=
  ((show W5 m ρ c (Proc.devRef .tc main_arg12) = W4 m ρ c (Proc.devRef .tc main_arg12) from (W5_of_ne m ρ c main_arg12 (by decide))).trans ((show W4 m ρ c (Proc.devRef .tc main_arg12) = W3 m ρ c (Proc.devRef .tc main_arg12) from (W4_of_ne m ρ c main_arg12 (by decide))).trans ((show W3 m ρ c (Proc.devRef .tc main_arg12) = W2 m ρ c (Proc.devRef .tc main_arg12) from (by untouched hostOps1)).trans ((show W2 m ρ c (Proc.devRef .tc main_arg12) = W1 m ρ c (Proc.devRef .tc main_arg12) from (W2_of_ne m ρ c main_arg12 (by decide))).trans (show W1 m ρ c (Proc.devRef .tc main_arg12) = W0 m ρ c (Proc.devRef .tc main_arg12) from (by untouched hostOps0))))))
theorem arg13_at5 : W5 m ρ c (Proc.devRef .tc main_arg13) = (m ((c : Thread nD τ).loc main_arg13)) :=
  ((show W5 m ρ c (Proc.devRef .tc main_arg13) = W4 m ρ c (Proc.devRef .tc main_arg13) from (W5_of_ne m ρ c main_arg13 (by decide))).trans ((show W4 m ρ c (Proc.devRef .tc main_arg13) = W3 m ρ c (Proc.devRef .tc main_arg13) from (W4_of_ne m ρ c main_arg13 (by decide))).trans ((show W3 m ρ c (Proc.devRef .tc main_arg13) = W2 m ρ c (Proc.devRef .tc main_arg13) from (by untouched hostOps1)).trans ((show W2 m ρ c (Proc.devRef .tc main_arg13) = W1 m ρ c (Proc.devRef .tc main_arg13) from (W2_of_ne m ρ c main_arg13 (by decide))).trans (show W1 m ρ c (Proc.devRef .tc main_arg13) = W0 m ρ c (Proc.devRef .tc main_arg13) from (by untouched hostOps0))))))
theorem arg14_at5 : W5 m ρ c (Proc.devRef .tc main_arg14) = (m ((c : Thread nD τ).loc main_arg14)) :=
  ((show W5 m ρ c (Proc.devRef .tc main_arg14) = W4 m ρ c (Proc.devRef .tc main_arg14) from (W5_of_ne m ρ c main_arg14 (by decide))).trans ((show W4 m ρ c (Proc.devRef .tc main_arg14) = W3 m ρ c (Proc.devRef .tc main_arg14) from (W4_of_ne m ρ c main_arg14 (by decide))).trans ((show W3 m ρ c (Proc.devRef .tc main_arg14) = W2 m ρ c (Proc.devRef .tc main_arg14) from (by untouched hostOps1)).trans ((show W2 m ρ c (Proc.devRef .tc main_arg14) = W1 m ρ c (Proc.devRef .tc main_arg14) from (W2_of_ne m ρ c main_arg14 (by decide))).trans (show W1 m ρ c (Proc.devRef .tc main_arg14) = W0 m ρ c (Proc.devRef .tc main_arg14) from (by untouched hostOps0))))))
theorem arg15_at7 : W7 m ρ c (Proc.devRef .tc main_arg15) = (m ((c : Thread nD τ).loc main_arg15)) :=
  ((show W7 m ρ c (Proc.devRef .tc main_arg15) = W6 m ρ c (Proc.devRef .tc main_arg15) from (W7_of_ne m ρ c main_arg15 (by decide))).trans ((show W6 m ρ c (Proc.devRef .tc main_arg15) = W5 m ρ c (Proc.devRef .tc main_arg15) from (by untouched hostOps3)).trans ((show W5 m ρ c (Proc.devRef .tc main_arg15) = W4 m ρ c (Proc.devRef .tc main_arg15) from (W5_of_ne m ρ c main_arg15 (by decide))).trans ((show W4 m ρ c (Proc.devRef .tc main_arg15) = W3 m ρ c (Proc.devRef .tc main_arg15) from (W4_of_ne m ρ c main_arg15 (by decide))).trans ((show W3 m ρ c (Proc.devRef .tc main_arg15) = W2 m ρ c (Proc.devRef .tc main_arg15) from (by untouched hostOps1)).trans ((show W2 m ρ c (Proc.devRef .tc main_arg15) = W1 m ρ c (Proc.devRef .tc main_arg15) from (W2_of_ne m ρ c main_arg15 (by decide))).trans (show W1 m ρ c (Proc.devRef .tc main_arg15) = W0 m ρ c (Proc.devRef .tc main_arg15) from (by untouched hostOps0))))))))
theorem v48_at6 : W6 m ρ c (Proc.devRef .tc main_v48) = (Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (show W6 m ρ c (Proc.devRef .tc main_v48) = W5 m ρ c (Proc.devRef .tc main_v48) from (by untouched hostOps3)).trans (v48_at5 m ρ c)
theorem v61_at6 : W6 m ρ c (Proc.devRef .tc main_v61) = (Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps3 (W5 m ρ c) (Proc.devRef .tc main_v61) = _
  simp only [hostOps3]
  after_results_simp
  rw [v48_at5 m ρ c, v1_at5 m ρ c, v3_at5 m ρ c, v25_at5 m ρ c]
  rfl
theorem v67_at6 : W6 m ρ c (Proc.devRef .tc main_v67) = shapeCast S100000x1 (Cert.ReferenceIdeal.Read.val_main_v26 (F := Ideal) (m ((c : Thread nD τ).loc main_arg1))) shapeCasts_S100000_S100000x1 := by
  show StableHlo.after hostOps3 (W5 m ρ c) (Proc.devRef .tc main_v67) = _
  simp only [hostOps3]
  after_results_simp
  rw [v26_at5 m ρ c]
  rfl
theorem v62_at6 : W6 m ρ c (Proc.devRef .tc main_v62) = shapeCast S1x64 (m ((c : Thread nD τ).loc main_arg10)) shapeCasts_S64_S1x64 := by
  show StableHlo.after hostOps3 (W5 m ρ c) (Proc.devRef .tc main_v62) = _
  simp only [hostOps3]
  after_results_simp
  rw [arg10_at5 m ρ c]
  rfl
theorem v63_at6 : W6 m ρ c (Proc.devRef .tc main_v63) = shapeCast S1x64 (m ((c : Thread nD τ).loc main_arg11)) shapeCasts_S64_S1x64 := by
  show StableHlo.after hostOps3 (W5 m ρ c) (Proc.devRef .tc main_v63) = _
  simp only [hostOps3]
  after_results_simp
  rw [arg11_at5 m ρ c]
  rfl
theorem v64_at6 : W6 m ρ c (Proc.devRef .tc main_v64) = shapeCast S1x64 (m ((c : Thread nD τ).loc main_arg12)) shapeCasts_S64_S1x64 := by
  show StableHlo.after hostOps3 (W5 m ρ c) (Proc.devRef .tc main_v64) = _
  simp only [hostOps3]
  after_results_simp
  rw [arg12_at5 m ρ c]
  rfl
theorem v65_at6 : W6 m ρ c (Proc.devRef .tc main_v65) = shapeCast S1x64 (m ((c : Thread nD τ).loc main_arg13)) shapeCasts_S64_S1x64 := by
  show StableHlo.after hostOps3 (W5 m ρ c) (Proc.devRef .tc main_v65) = _
  simp only [hostOps3]
  after_results_simp
  rw [arg13_at5 m ρ c]
  rfl
theorem v66_at6 : W6 m ρ c (Proc.devRef .tc main_v66) = shapeCast S1x64 (m ((c : Thread nD τ).loc main_arg14)) shapeCasts_S64_S1x64 := by
  show StableHlo.after hostOps3 (W5 m ρ c) (Proc.devRef .tc main_v66) = _
  simp only [hostOps3]
  after_results_simp
  rw [arg14_at5 m ρ c]
  rfl
/-- After the second combine region its output array holds the reference's second layer. -/
theorem v68_at7 : W7 m ρ c (Proc.devRef .tc main_v68) = (Cert.ReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W7_arr m ρ c 8).trans ((Combine3.value (V6 m ρ) c).trans ?_)
  rw [show V6 m ρ c main_v61 = _ from v61_at6 m ρ c,
    show V6 m ρ c main_v48 = _ from v48_at6 m ρ c,
    show V6 m ρ c main_v67 = _ from v67_at6 m ρ c,
    show V6 m ρ c main_v62 = _ from v62_at6 m ρ c,
    show V6 m ρ c main_v63 = _ from v63_at6 m ρ c,
    show V6 m ρ c main_v64 = _ from v64_at6 m ρ c,
    show V6 m ρ c main_v65 = _ from v65_at6 m ρ c,
    show V6 m ρ c main_v66 = _ from v66_at6 m ρ c]
  exact (Cert.ReferenceIdeal.Stage.combine_eq _ _ _ _ _ _ _ _ shapeCasts_S100000_S100000x1 shapeCasts_S64_S1x64).symm
/-- After the third dense region its output array holds the reference's third matrix product. -/
theorem v69_at8 : W8 m ρ c (Proc.devRef .tc main_v69) = (Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W8_arr m ρ c 2).trans (((Dense4.value (V7 m ρ) c).trans
    (congrArg₂ (Cert.Spec.dense 100000 64 64) (v68_at7 m ρ c) (arg15_at7 m ρ c))).trans
    (Cert.ReferenceIdeal.Stage.dense_64_64 _ _).symm)
theorem v1_at8 : W8 m ρ c (Proc.devRef .tc main_v1) = (Cert.ReferenceIdeal.Read.val_main_v1 (F := Ideal) (m ((c : Thread nD τ).loc main_arg1))) :=
  ((show W8 m ρ c (Proc.devRef .tc main_v1) = W7 m ρ c (Proc.devRef .tc main_v1) from (W8_of_ne m ρ c main_v1 (by decide))).trans ((show W7 m ρ c (Proc.devRef .tc main_v1) = W6 m ρ c (Proc.devRef .tc main_v1) from (W7_of_ne m ρ c main_v1 (by decide))).trans (show W6 m ρ c (Proc.devRef .tc main_v1) = W5 m ρ c (Proc.devRef .tc main_v1) from (by untouched hostOps3)))).trans (v1_at5 m ρ c)
theorem v3_at8 : W8 m ρ c (Proc.devRef .tc main_v3) = (Cert.ReferenceIdeal.Read.val_main_v3 (F := Ideal) (m ((c : Thread nD τ).loc main_arg1))) :=
  ((show W8 m ρ c (Proc.devRef .tc main_v3) = W7 m ρ c (Proc.devRef .tc main_v3) from (W8_of_ne m ρ c main_v3 (by decide))).trans ((show W7 m ρ c (Proc.devRef .tc main_v3) = W6 m ρ c (Proc.devRef .tc main_v3) from (W7_of_ne m ρ c main_v3 (by decide))).trans (show W6 m ρ c (Proc.devRef .tc main_v3) = W5 m ρ c (Proc.devRef .tc main_v3) from (by untouched hostOps3)))).trans (v3_at5 m ρ c)
theorem v25_at8 : W8 m ρ c (Proc.devRef .tc main_v25) = (Cert.ReferenceIdeal.Read.val_main_v25 (F := Ideal) (m ((c : Thread nD τ).loc main_arg1))) :=
  ((show W8 m ρ c (Proc.devRef .tc main_v25) = W7 m ρ c (Proc.devRef .tc main_v25) from (W8_of_ne m ρ c main_v25 (by decide))).trans ((show W7 m ρ c (Proc.devRef .tc main_v25) = W6 m ρ c (Proc.devRef .tc main_v25) from (W7_of_ne m ρ c main_v25 (by decide))).trans (show W6 m ρ c (Proc.devRef .tc main_v25) = W5 m ρ c (Proc.devRef .tc main_v25) from (by untouched hostOps3)))).trans (v25_at5 m ρ c)
theorem v26_at8 : W8 m ρ c (Proc.devRef .tc main_v26) = (Cert.ReferenceIdeal.Read.val_main_v26 (F := Ideal) (m ((c : Thread nD τ).loc main_arg1))) :=
  ((show W8 m ρ c (Proc.devRef .tc main_v26) = W7 m ρ c (Proc.devRef .tc main_v26) from (W8_of_ne m ρ c main_v26 (by decide))).trans ((show W7 m ρ c (Proc.devRef .tc main_v26) = W6 m ρ c (Proc.devRef .tc main_v26) from (W7_of_ne m ρ c main_v26 (by decide))).trans (show W6 m ρ c (Proc.devRef .tc main_v26) = W5 m ρ c (Proc.devRef .tc main_v26) from (by untouched hostOps3)))).trans (v26_at5 m ρ c)

end Cert.KernelIdeal.Whole

end
-- ==== Proof.KCombine5.lean ====
/-
  What the third combine region of the kernel leaves in its output array: the layer's combination, normalisation and
  positive part of its eight input arrays as the region finds them, entry by entry.

  The region walks the 100000 rows in 20 blocks of 5000. At grid point t it loads rows 5000·t … 5000·t + 4999 of the
  aggregated messages, of the node features and of the column of self-loop weights, and the five one-row parameter
  arrays whole. Every operation of the body is entrywise once the column has been repeated along each row and each
  parameter row down each column, so the block's entry (p, q) is a function of the aggregated message and the feature
  at (p, q), the weight of row p and the parameters of column q; it is written back as row 5000·t + p. An entry
  (r, q) of the output lies in the block of point r / 5000 and nowhere else.
-/
import proofs.«181545_j70549132804339_1_alg».proof.Proof.Gen.KernelIdeal.Frame
import proofs.«181545_j70549132804339_1_alg».proof.Proof.LibColumn
import proofs.«181545_j70549132804339_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine5

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

/-- The small constant added to the running variance, and zero, as the body spells them. -/
abbrev eps : EReal := Ideal.ofBits .f32 0x3727C5AC#32
abbrev zero : EReal := Ideal.ofBits .f32 0x00000000#32

/-- The body's stored value at (p, q) of the block, from the loaded blocks: the operands in the order the body loads
    them are the messages, the features, the weight column, the bias, the running mean, the running variance, the
    scale and the shift. -/
theorem payload_apply (v0 v2 : Vec Ideal S5000x64 .f32) (v4 : Vec Ideal S5000x1 .f32)
    (v9 v13 v17 v24 v28 : Vec Ideal S1x64 .f32) (p : Fin 5000) (q : Fin 64) :
    k5_pay1 (F := Ideal) v0 v2 v4 v9 v13 v17 v24 v28 (ix2 p q)
      = Cert.Spec.combine 5000 64 eps zero v0 v2 v4 v9 v24 v28 v13 v17 (ix2 p q) := by
  unfold k5_pay1
  simp only [shapeCast_self]
  show max ((((v0 (ix2 p q) + v2 (ix2 p q) * broadcastTo S5000x64 v4 broadcasts_S5000x1_S5000x64 (ix2 p q))
                + broadcastTo S5000x64 v9 broadcasts_S1x64_S5000x64 (ix2 p q))
              - broadcastTo S5000x64 v13 broadcasts_S1x64_S5000x64 (ix2 p q))
            * broadcastTo S5000x64 (fun i => Ideal.rsqrt (v17 i + eps)) broadcasts_S1x64_S5000x64 (ix2 p q)
            * broadcastTo S5000x64 v24 broadcasts_S1x64_S5000x64 (ix2 p q)
          + broadcastTo S5000x64 v28 broadcasts_S1x64_S5000x64 (ix2 p q)) zero = _
  rw [Cert.Lib.broadcastTo_a1_ab_apply, broadcastTo_1b_ab_apply, broadcastTo_1b_ab_apply, broadcastTo_1b_ab_apply,
    broadcastTo_1b_ab_apply, broadcastTo_1b_ab_apply]
  rfl

/-- Where the nine windows sit at grid point t: the two feature windows, the weight column and the output are at
    the t-th row block, the five parameter rows are whole. -/
theorem blocks_at : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- Every row block is some grid point's. -/
theorem block_of_row : ∀ q0 : Fin 20, ∃ t : Fin cfg5.N, win5_8.index t = ![q0.val, 0] :=
  (by decide +kernel : ∀ q0 : Fin 20, ∃ t : Fin grid5.N, win5_8.index t = ![q0.val, 0])

/-! Where a block entry sits in its array: a window's block at point t starts at its block index times the block's
    extent on each axis. -/

theorem entry_0 (t : Fin cfg5.N) (p : Fin 5000) (q : Fin 64) :
    ((cfg5.win 0).blk t).view.emb (ix2 p q) = ((cfg5.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win5_0.index t (0 : Fin 2) * 5000 + 1 * p.val = win5_8.index t (0 : Fin 2) * 5000 + 1 * p.val; omega
  | ⟨1, _⟩ => show win5_0.index t (1 : Fin 2) * 64 + 1 * q.val = win5_8.index t (1 : Fin 2) * 64 + 1 * q.val; omega
theorem entry_1 (t : Fin cfg5.N) (p : Fin 5000) (q : Fin 64) :
    ((cfg5.win 1).blk t).view.emb (ix2 p q) = ((cfg5.win 8).blk t).view.emb (ix2 p q) := by
  obtain ⟨e00, e01, e10, e11, e20, e21, e30, e31, e40, e41, e50, e51, e60, e61, e70, e71, e80, e81⟩ := blocks_at t
  funext a; apply Fin.ext
  match a with
  | ⟨0, _⟩ => show win5_1.index t (0 : Fin 2) * 5000 + 1 * p.val = win5_8.index t (0 : Fin 2) * 5000 + 1 * p.val; omega
  | ⟨1, _⟩ => show win5_1.index t (1 : Fin 2) * 64 + 1 * q.val = win5_8.index t (1 : Fin 2) * 64 + 1 * q.val; omega
theorem entry_2 (t : Fin cfg5.N) (p : Fin 5000) (q : Fin 64) :
    ((cfg5.win 2).blk t).view.emb (ix2 p (0 : Fin 1)) = ix2 (n0 := 100000) (n1 := 1) (((cfg5.win 8).blk t).view.emb (ix2 p q) 0) 0 := by
  obtain ⟨e00, e01, e10, e11, e20, e21, e30, e31, e40, e41, e50, e51, e60, e61, e70, e71, e80, e81⟩ := blocks_at t
  funext a; apply Fin.ext
  match a with
  | ⟨0, _⟩ => show win5_2.index t (0 : Fin 2) * 5000 + 1 * p.val = win5_8.index t (0 : Fin 2) * 5000 + 1 * p.val; omega
  | ⟨1, _⟩ => show win5_2.index t (1 : Fin 2) * 1 + 1 * 0 = 0; omega
theorem entry_3 (t : Fin cfg5.N) (p : Fin 5000) (q : Fin 64) :
    ((cfg5.win 3).blk t).view.emb (ix2 (0 : Fin 1) q) = ix2 (n0 := 1) (n1 := 64) 0 (((cfg5.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win5_3.index t (0 : Fin 2) * 1 + 1 * 0 = 0; omega
  | ⟨1, _⟩ => show win5_3.index t (1 : Fin 2) * 64 + 1 * q.val = win5_8.index t (1 : Fin 2) * 64 + 1 * q.val; omega
theorem entry_4 (t : Fin cfg5.N) (p : Fin 5000) (q : Fin 64) :
    ((cfg5.win 4).blk t).view.emb (ix2 (0 : Fin 1) q) = ix2 (n0 := 1) (n1 := 64) 0 (((cfg5.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win5_4.index t (0 : Fin 2) * 1 + 1 * 0 = 0; omega
  | ⟨1, _⟩ => show win5_4.index t (1 : Fin 2) * 64 + 1 * q.val = win5_8.index t (1 : Fin 2) * 64 + 1 * q.val; omega
theorem entry_5 (t : Fin cfg5.N) (p : Fin 5000) (q : Fin 64) :
    ((cfg5.win 5).blk t).view.emb (ix2 (0 : Fin 1) q) = ix2 (n0 := 1) (n1 := 64) 0 (((cfg5.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win5_5.index t (0 : Fin 2) * 1 + 1 * 0 = 0; omega
  | ⟨1, _⟩ => show win5_5.index t (1 : Fin 2) * 64 + 1 * q.val = win5_8.index t (1 : Fin 2) * 64 + 1 * q.val; omega
theorem entry_6 (t : Fin cfg5.N) (p : Fin 5000) (q : Fin 64) :
    ((cfg5.win 6).blk t).view.emb (ix2 (0 : Fin 1) q) = ix2 (n0 := 1) (n1 := 64) 0 (((cfg5.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win5_6.index t (0 : Fin 2) * 1 + 1 * 0 = 0; omega
  | ⟨1, _⟩ => show win5_6.index t (1 : Fin 2) * 64 + 1 * q.val = win5_8.index t (1 : Fin 2) * 64 + 1 * q.val; omega
theorem entry_7 (t : Fin cfg5.N) (p : Fin 5000) (q : Fin 64) :
    ((cfg5.win 7).blk t).view.emb (ix2 (0 : Fin 1) q) = ix2 (n0 := 1) (n1 := 64) 0 (((cfg5.win 8).blk t).view.emb (ix2 p q) 1) := by
  obtain ⟨e00, e01, e10, e11, e20, e21, e30, e31, e40, e41, e50, e51, e60, e61, e70, e71, e80, e81⟩ := blocks_at t
  funext a; apply Fin.ext
  match a with
  | ⟨0, _⟩ => show win5_7.index t (0 : Fin 2) * 1 + 1 * 0 = 0; omega
  | ⟨1, _⟩ => show win5_7.index t (1 : Fin 2) * 64 + 1 * q.val = win5_8.index t (1 : Fin 2) * 64 + 1 * q.val; omega

/-- What grid point t writes back is block t of the layer's combination of the eight input arrays. -/
theorem flushed_eq (c : Dev nD) (t : Fin cfg5.N) :
    (dat5 V c).flushed 8 t = ((cfg5.win 8).blk t).view.read (Elt Ideal)
      (Cert.Spec.combine 100000 64 eps zero (V c main_v82) (V c main_v69) (V c main_v88) (V c main_v83) (V c main_v84)
        (V c main_v85) (V c main_v86) (V c main_v87)) := by
  show (cfg5.win 8).cut (grid5.coords t) ((dat5 V c).after 8 t) = _
  rw [after5_8]
  unfold out5_8
  rw [View.canon_unit_zero origin]
  simp only [View.ld_unit_zero (S := S5000x64) origin, View.ld_unit_zero (S := S5000x1) origin,
    View.ld_unit_zero (S := S1x64) origin]
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (iblk5 V c 2 t) (iblk5 V c 3 t) (iblk5 V c 6 t) (iblk5 V c 7 t)
        (iblk5 V c 4 t) (iblk5 V c 5 t) (ix2 p q)
      = Cert.Spec.combine 100000 64 eps zero (V c main_v82) (V c main_v69) (V c main_v88) (V c main_v83) (V c main_v84)
        (V c main_v85) (V c main_v86) (V c main_v87) (((cfg5.win 8).blk t).view.emb (ix2 p q))
  rw [payload_apply]
  refine Cert.Spec.combine_congr eps zero _ _ _ _ _ _ _ _ _ _ _ _ _ _ _ _ _ _ ?_ ?_ ?_ ?_ ?_ ?_ ?_ ?_
  · exact (congrArg (V c main_v82) (entry_0 t p q) :)
  · exact (congrArg (V c main_v69) (entry_1 t p q) :)
  · exact (congrArg (V c main_v88) (entry_2 t p q) :)
  · exact (congrArg (V c main_v83) (entry_3 t p q) :)
  · exact (congrArg (V c main_v84) (entry_4 t p q) :)
  · exact (congrArg (V c main_v85) (entry_5 t p q) :)
  · exact (congrArg (V c main_v86) (entry_6 t p q) :)
  · exact (congrArg (V c main_v87) (entry_7 t p q) :)

/-- An index of the output array lies in point t's block iff each coordinate is in the block's range on its axis. -/
theorem mem_block (t : Fin cfg5.N) (i : S100000x64.Idx) :
    i ∈ ((cfg5.win 8).blk t).view.set ↔ ∀ a : Fin 2, win5_8.index t a * S5000x64.size a ≤ (i a).val
      ∧ (i a).val < win5_8.index t a * S5000x64.size a + S5000x64.size a := by
  show i ∈ ((View.whole main_v89).slice (win5_8.rect t)).set ↔ _
  rw [View.set_slice_whole, Rect.mem_set_unit]
  exact Iff.rfl

/-- Row r of the output lies in the block of grid point r / 5000. -/
theorem covered (i : S100000x64.Idx) :
    ∃ t : Fin cfg5.N, (cfg5.win 8).flush t = true ∧ i ∈ ((cfg5.win 8).blk t).view.set := by
  have hi0 : (i 0).val < 100000 := (i 0).isLt
  have hi1 : (i 1).val < 64 := (i 1).isLt
  obtain ⟨t, ht⟩ := block_of_row ⟨(i 0).val / 5000, by omega⟩
  have q0 : win5_8.index t (0 : Fin 2) = (i 0).val / 5000 := congrFun ht 0
  have q1 : win5_8.index t (1 : Fin 2) = 0 := congrFun ht 1
  refine ⟨t, flush5_8 t, ?_⟩
  rw [mem_block]
  intro a
  match a with
  | ⟨0, _⟩ =>
    show win5_8.index t (0 : Fin 2) * 5000 ≤ (i 0).val ∧ (i 0).val < win5_8.index t (0 : Fin 2) * 5000 + 5000
    omega
  | ⟨1, _⟩ =>
    show win5_8.index t (1 : Fin 2) * 64 ≤ (i 1).val ∧ (i 1).val < win5_8.index t (1 : Fin 2) * 64 + 64
    omega

/-- THE OUTPUT ARRAY after the region: the layer's combination of the eight input arrays as the region finds them. -/
theorem value (c : Dev nD) :
    (dat5 V c).arrAt 8 cfg5.N
      = Cert.Spec.combine 100000 64 eps zero (V c main_v82) (V c main_v69) (V c main_v88) (V c main_v83) (V c main_v84)
        (V c main_v85) (V c main_v86) (V c main_v87) :=
  (dat5 V c).arrAt_eq_of_cover 8 _ (fun t _ => flushed_eq V c t) covered

end Cert.KernelIdeal.Combine5

end
-- ==== Proof.KHead6.lean ====
/-
  What the head region of the kernel leaves in its output array: the two-layer head of its five input arrays as the
  region finds them, entry by entry.

  The region has one grid point; every window is its whole array. The body multiplies the 256 × 64 pooled features
  by the 64 × 32 first weight matrix into a zero accumulator, adds the first bias row down every column and takes the
  positive part; multiplies that 256 × 32 hidden layer by the 32 × 2 second weight matrix into a zero accumulator,
  adds the second bias row and applies the logistic function. Narrowing a matrix product's operands to a shorter
  float format is the identity on the extended reals.
-/
import proofs.«181545_j70549132804339_1_alg».proof.Proof.Gen.KernelIdeal.Frame
import proofs.«181545_j70549132804339_1_alg».proof.Proof.LibPlainDot
import proofs.«181545_j70549132804339_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Head6

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem origin : (![0, 0] : Fin 2 → Nat) = fun _ => 0 := funext fun a => by fin_cases a <;> rfl

abbrev zero : EReal := Ideal.ofBits .f32 0x00000000#32

/-- The body's two matrix products into zero accumulators, at an index. -/
theorem product1_apply (l : FVec Ideal S256x64 .bf16) (r : FVec Ideal S64x32 .bf16) (p : Fin 256) (j : Fin 32) :
    FloatOps.matmul dot_S256x64_S64x32_S256x32_1_0_0_1_n_n none l r (constant (F := Ideal) S256x32 .f32 0x00000000#32) (ix2 p j)
      = ∑ k : Fin 64, l (ix2 p k) * r (ix2 k j) :=
  Cert.Lib.matmul_zero_apply (M := 256) (K := 64) (N := 32) dot_S256x64_S64x32_S256x32_1_0_0_1_n_n.wf none l r p j

theorem product2_apply (l : FVec Ideal S256x32 .bf16) (r : FVec Ideal S32x2 .bf16) (p : Fin 256) (q : Fin 2) :
    FloatOps.matmul dot_S256x32_S32x2_S256x2_1_0_0_1_n_n none l r (constant (F := Ideal) S256x2 .f32 0x00000000#32) (ix2 p q)
      = ∑ j : Fin 32, l (ix2 p j) * r (ix2 j q) :=
  Cert.Lib.matmul_zero_apply (M := 256) (K := 32) (N := 2) dot_S256x32_S32x2_S256x2_1_0_0_1_n_n.wf none l r p q

/-- The hidden layer as the body computes it, at (p, j). -/
theorem hidden_apply (v0 : Vec Ideal S256x64 .f32) (v3 : Vec Ideal S64x32 .f32) (v6 : Vec Ideal S1x32 .f32)
    (p : Fin 256) (j : Fin 32) :
    max (FloatOps.matmul dot_S256x64_S64x32_S256x32_1_0_0_1_n_n none (truncf .bf16 v0 bitsLt_bf16_f32)
            (truncf .bf16 v3 bitsLt_bf16_f32) (constant (F := Ideal) S256x32 .f32 0x00000000#32) (ix2 p j)
          + broadcastTo S256x32 v6 broadcasts_S1x32_S256x32 (ix2 p j)) zero
      = Cert.Spec.hidden 256 64 32 zero v0 v3 v6 (ix2 p j) := by
  rw [product1_apply, broadcastTo_1b_ab_apply]
  rfl

/-- The body's stored value at (p, q). -/
theorem payload_apply (v0 : Vec Ideal S256x64 .f32) (v3 : Vec Ideal S64x32 .f32) (v6 : Vec Ideal S1x32 .f32)
    (v13 : Vec Ideal S32x2 .f32) (v16 : Vec Ideal S1x2 .f32) (p : Fin 256) (q : Fin 2) :
    k6_pay1 (F := Ideal) v0 v3 v6 v13 v16 (ix2 p q) = Cert.Spec.head 256 64 32 2 zero v0 v3 v6 v13 v16 (ix2 p q) := by
  unfold k6_pay1
  simp only [shapeCast_self]
  show Ideal.logistic (FloatOps.matmul dot_S256x32_S32x2_S256x2_1_0_0_1_n_n none
        (truncf .bf16 ((fun i : S256x32.Idx => max (FloatOps.matmul dot_S256x64_S64x32_S256x32_1_0_0_1_n_n none (truncf .bf16 v0 bitsLt_bf16_f32)
            (truncf .bf16 v3 bitsLt_bf16_f32) (constant (F := Ideal) S256x32 .f32 0x00000000#32) i
          + broadcastTo S256x32 v6 broadcasts_S1x32_S256x32 i) zero) : FVec Ideal S256x32 .f32) bitsLt_bf16_f32)
        (truncf .bf16 v13 bitsLt_bf16_f32) (constant (F := Ideal) S256x2 .f32 0x00000000#32) (ix2 p q)
      + broadcastTo S256x2 v16 broadcasts_S1x2_S256x2 (ix2 p q)) = _
  rw [product2_apply, broadcastTo_1b_ab_apply]
  unfold Cert.Spec.head
  show Ideal.logistic (_ + _) = Ideal.logistic (Cert.Spec.dense 256 32 2 _ _ (ix2 p q) + _)
  unfold Cert.Spec.dense
  refine congrArg Ideal.logistic (congrArg (· + v16 (ix2 (0 : Fin 1) q)) (Finset.sum_congr rfl fun j _ => ?_))
  exact congrArg (· * v13 (ix2 j q)) (hidden_apply v0 v3 v6 p j)

/-- Every window of the one grid point is at block (0, 0). -/
theorem blocks_at : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the one grid point writes back is the head of the five input arrays. -/
theorem flushed_eq (c : Dev nD) (t : Fin cfg6.N) :
    (dat6 V c).flushed 5 t = ((cfg6.win 5).blk t).view.read (Elt Ideal)
      (Cert.Spec.head 256 64 32 2 zero (V c main_v101) (V c main_arg21) (V c main_v102) (V c main_arg23) (V c main_v103)) := by
  show (cfg6.win 5).cut (grid6.coords t) ((dat6 V c).after 5 t) = _
  rw [after6_5]
  unfold out6_5
  rw [View.canon_unit_zero origin]
  simp only [View.ld_unit_zero (S := S256x64) origin, View.ld_unit_zero (S := S64x32) origin,
    View.ld_unit_zero (S := S1x32) origin, View.ld_unit_zero (S := S32x2) origin, View.ld_unit_zero (S := S1x2) origin]
  obtain ⟨e00, e01, e10, e11, e20, e21, e30, e31, e40, e41, e50, e51⟩ := blocks_at t
  have hb0 : iblk6 V c 0 t = V c main_v101 := by
    funext y
    show V c main_v101 (((cfg6.win 0).blk t).view.emb y) = V c main_v101 y
    refine congrArg _ (funext fun a => Fin.ext ?_)
    match a with
    | ⟨0, _⟩ => show win6_0.index t (0 : Fin 2) * 256 + 1 * (y 0).val = (y 0).val; omega
    | ⟨1, _⟩ => show win6_0.index t (1 : Fin 2) * 64 + 1 * (y 1).val = (y 1).val; omega
  have hb1 : iblk6 V c 1 t = V c main_arg21 := by
    funext y
    show V c main_arg21 (((cfg6.win 1).blk t).view.emb y) = V c main_arg21 y
    refine congrArg _ (funext fun a => Fin.ext ?_)
    match a with
    | ⟨0, _⟩ => show win6_1.index t (0 : Fin 2) * 64 + 1 * (y 0).val = (y 0).val; omega
    | ⟨1, _⟩ => show win6_1.index t (1 : Fin 2) * 32 + 1 * (y 1).val = (y 1).val; omega
  have hb2 : iblk6 V c 2 t = V c main_v102 := by
    funext y
    show V c main_v102 (((cfg6.win 2).blk t).view.emb y) = V c main_v102 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 32 + 1 * (y 1).val = (y 1).val; omega
  have hb3 : iblk6 V c 3 t = V c main_arg23 := by
    funext y
    show V c main_arg23 (((cfg6.win 3).blk t).view.emb y) = V c main_arg23 y
    refine congrArg _ (funext fun a => Fin.ext ?_)
    match a with
    | ⟨0, _⟩ => show win6_3.index t (0 : Fin 2) * 32 + 1 * (y 0).val = (y 0).val; omega
    | ⟨1, _⟩ => show win6_3.index t (1 : Fin 2) * 2 + 1 * (y 1).val = (y 1).val; omega
  have hb4 : iblk6 V c 4 t = V c main_v103 := by
    funext y
    show V c main_v103 (((cfg6.win 4).blk t).view.emb y) = V c main_v103 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 2 + 1 * (y 1).val = (y 1).val; omega
  rw [hb0, hb1, hb2, hb3, hb4]
  funext j
  obtain ⟨p, q, rfl⟩ : ∃ (p : Fin 256) (q : Fin 2), j = ix2 p q := ⟨j 0, j 1, eq_ix2 j⟩
  show k6_pay1 (F := Ideal) (V c main_v101) (V c main_arg21) (V c main_v102) (V c main_arg23) (V c main_v103) (ix2 p q)
    = Cert.Spec.head 256 64 32 2 zero (V c main_v101) (V c main_arg21) (V c main_v102) (V c main_arg23) (V c main_v103)
      (((cfg6.win 5).blk t).view.emb (ix2 p q))
  rw [payload_apply]
  show _ = Cert.Spec.head 256 64 32 2 zero (V c main_v101) (V c main_arg21) (V c main_v102) (V c main_arg23) (V c main_v103)
    (((cfg6.win 5).blk t).view.emb (ix2 p q))
  refine congrArg _ (funext fun a => Fin.ext ?_)
  match a with
  | ⟨0, _⟩ => show p.val = win6_5.index t (0 : Fin 2) * 256 + 1 * p.val; omega
  | ⟨1, _⟩ => show q.val = win6_5.index t (1 : Fin 2) * 2 + 1 * q.val; omega

/-- An index of the output array lies in the one block iff each coordinate is in the block's range on its axis. -/
theorem mem_block (t : Fin cfg6.N) (i : S256x2.Idx) :
    i ∈ ((cfg6.win 5).blk t).view.set ↔ ∀ a : Fin 2, win6_5.index t a * S256x2.size a ≤ (i a).val
      ∧ (i a).val < win6_5.index t a * S256x2.size a + S256x2.size a := by
  show i ∈ ((View.whole main_v104).slice (win6_5.rect t)).set ↔ _
  rw [View.set_slice_whole, Rect.mem_set_unit]
  exact Iff.rfl

/-- The one block is the whole output array. -/
theorem covered (i : S256x2.Idx) :
    ∃ t : Fin cfg6.N, (cfg6.win 5).flush t = true ∧ i ∈ ((cfg6.win 5).blk t).view.set := by
  have hi0 : (i 0).val < 256 := (i 0).isLt
  have hi1 : (i 1).val < 2 := (i 1).isLt
  have hN : 0 < cfg6.N := by show 0 < grid6.N; rw [N_6]; exact Nat.one_pos
  obtain ⟨e00, e01, e10, e11, e20, e21, e30, e31, e40, e41, e50, e51⟩ := blocks_at ⟨0, hN⟩
  refine ⟨⟨0, hN⟩, flush6_5 _, ?_⟩
  rw [mem_block]
  intro a
  match a with
  | ⟨0, _⟩ =>
    show win6_5.index ⟨0, hN⟩ (0 : Fin 2) * 256 ≤ (i 0).val ∧ (i 0).val < win6_5.index ⟨0, hN⟩ (0 : Fin 2) * 256 + 256
    omega
  | ⟨1, _⟩ =>
    show win6_5.index ⟨0, hN⟩ (1 : Fin 2) * 2 ≤ (i 1).val ∧ (i 1).val < win6_5.index ⟨0, hN⟩ (1 : Fin 2) * 2 + 2
    omega

/-- THE OUTPUT ARRAY after the region: the head of the five input arrays as the region finds them. -/
theorem value (c : Dev nD) :
    (dat6 V c).arrAt 5 cfg6.N
      = Cert.Spec.head 256 64 32 2 zero (V c main_v101) (V c main_arg21) (V c main_v102) (V c main_arg23) (V c main_v103) :=
  (dat6 V c).arrAt_eq_of_cover 5 _ (fun t _ => flushed_eq V c t) covered

end Cert.KernelIdeal.Head6

end
-- ==== Proof.KFoldC.lean ====
/-
  The contents of the kernel program's buffers through its third layer, the pooling and the head, read against the
  reference's values: the fourth stretch of host operations gathers, scales and sums the messages of the third
  matrix product; the third combine region leaves the reference's third layer; the last stretch counts the nodes of
  each graph, sums their features and divides, with the reference's own operations; the head region leaves the
  reference's result.
-/
import proofs.«181545_j70549132804339_1_alg».proof.Proof.KFoldB
import proofs.«181545_j70549132804339_1_alg».proof.Proof.KCombine5
import proofs.«181545_j70549132804339_1_alg».proof.Proof.KHead6
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- A buffer that no operation of a stretch writes holds after the stretch what it held before. -/
macro "untouched" ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

theorem arg16_at8 : W8 m ρ c (Proc.devRef .tc main_arg16) = (m ((c : Thread nD τ).loc main_arg16)) :=
  ((show W8 m ρ c (Proc.devRef .tc main_arg16) = W7 m ρ c (Proc.devRef .tc main_arg16) from (W8_of_ne m ρ c main_arg16 (by decide))).trans ((show W7 m ρ c (Proc.devRef .tc main_arg16) = W6 m ρ c (Proc.devRef .tc main_arg16) from (W7_of_ne m ρ c main_arg16 (by decide))).trans ((show W6 m ρ c (Proc.devRef .tc main_arg16) = W5 m ρ c (Proc.devRef .tc main_arg16) from (by untouched hostOps3)).trans ((show W5 m ρ c (Proc.devRef .tc main_arg16) = W4 m ρ c (Proc.devRef .tc main_arg16) from (W5_of_ne m ρ c main_arg16 (by decide))).trans ((show W4 m ρ c (Proc.devRef .tc main_arg16) = W3 m ρ c (Proc.devRef .tc main_arg16) from (W4_of_ne m ρ c main_arg16 (by decide))).trans ((show W3 m ρ c (Proc.devRef .tc main_arg16) = W2 m ρ c (Proc.devRef .tc main_arg16) from (by untouched hostOps1)).trans ((show W2 m ρ c (Proc.devRef .tc main_arg16) = W1 m ρ c (Proc.devRef .tc main_arg16) from (W2_of_ne m ρ c main_arg16 (by decide))).trans (show W1 m ρ c (Proc.devRef .tc main_arg16) = W0 m ρ c (Proc.devRef .tc main_arg16) from (by untouched hostOps0)))))))))
theorem arg17_at8 : W8 m ρ c (Proc.devRef .tc main_arg17) = (m ((c : Thread nD τ).loc main_arg17)) :=
  ((show W8 m ρ c (Proc.devRef .tc main_arg17) = W7 m ρ c (Proc.devRef .tc main_arg17) from (W8_of_ne m ρ c main_arg17 (by decide))).trans ((show W7 m ρ c (Proc.devRef .tc main_arg17) = W6 m ρ c (Proc.devRef .tc main_arg17) from (W7_of_ne m ρ c main_arg17 (by decide))).trans ((show W6 m ρ c (Proc.devRef .tc main_arg17) = W5 m ρ c (Proc.devRef .tc main_arg17) from (by untouched hostOps3)).trans ((show W5 m ρ c (Proc.devRef .tc main_arg17) = W4 m ρ c (Proc.devRef .tc main_arg17) from (W5_of_ne m ρ c main_arg17 (by decide))).trans ((show W4 m ρ c (Proc.devRef .tc main_arg17) = W3 m ρ c (Proc.devRef .tc main_arg17) from (W4_of_ne m ρ c main_arg17 (by decide))).trans ((show W3 m ρ c (Proc.devRef .tc main_arg17) = W2 m ρ c (Proc.devRef .tc main_arg17) from (by untouched hostOps1)).trans ((show W2 m ρ c (Proc.devRef .tc main_arg17) = W1 m ρ c (Proc.devRef .tc main_arg17) from (W2_of_ne m ρ c main_arg17 (by decide))).trans (show W1 m ρ c (Proc.devRef .tc main_arg17) = W0 m ρ c (Proc.devRef .tc main_arg17) from (by untouched hostOps0)))))))))
theorem arg18_at8 : W8 m ρ c (Proc.devRef .tc main_arg18) = (m ((c : Thread nD τ).loc main_arg18)) :=
  ((show W8 m ρ c (Proc.devRef .tc main_arg18) = W7 m ρ c (Proc.devRef .tc main_arg18) from (W8_of_ne m ρ c main_arg18 (by decide))).trans ((show W7 m ρ c (Proc.devRef .tc main_arg18) = W6 m ρ c (Proc.devRef .tc main_arg18) from (W7_of_ne m ρ c main_arg18 (by decide))).trans ((show W6 m ρ c (Proc.devRef .tc main_arg18) = W5 m ρ c (Proc.devRef .tc main_arg18) from (by untouched hostOps3)).trans ((show W5 m ρ c (Proc.devRef .tc main_arg18) = W4 m ρ c (Proc.devRef .tc main_arg18) from (W5_of_ne m ρ c main_arg18 (by decide))).trans ((show W4 m ρ c (Proc.devRef .tc main_arg18) = W3 m ρ c (Proc.devRef .tc main_arg18) from (W4_of_ne m ρ c main_arg18 (by decide))).trans ((show W3 m ρ c (Proc.devRef .tc main_arg18) = W2 m ρ c (Proc.devRef .tc main_arg18) from (by untouched hostOps1)).trans ((show W2 m ρ c (Proc.devRef .tc main_arg18) = W1 m ρ c (Proc.devRef .tc main_arg18) from (W2_of_ne m ρ c main_arg18 (by decide))).trans (show W1 m ρ c (Proc.devRef .tc main_arg18) = W0 m ρ c (Proc.devRef .tc main_arg18) from (by untouched hostOps0)))))))))
theorem arg19_at8 : W8 m ρ c (Proc.devRef .tc main_arg19) = (m ((c : Thread nD τ).loc main_arg19)) :=
  ((show W8 m ρ c (Proc.devRef .tc main_arg19) = W7 m ρ c (Proc.devRef .tc main_arg19) from (W8_of_ne m ρ c main_arg19 (by decide))).trans ((show W7 m ρ c (Proc.devRef .tc main_arg19) = W6 m ρ c (Proc.devRef .tc main_arg19) from (W7_of_ne m ρ c main_arg19 (by decide))).trans ((show W6 m ρ c (Proc.devRef .tc main_arg19) = W5 m ρ c (Proc.devRef .tc main_arg19) from (by untouched hostOps3)).trans ((show W5 m ρ c (Proc.devRef .tc main_arg19) = W4 m ρ c (Proc.devRef .tc main_arg19) from (W5_of_ne m ρ c main_arg19 (by decide))).trans ((show W4 m ρ c (Proc.devRef .tc main_arg19) = W3 m ρ c (Proc.devRef .tc main_arg19) from (W4_of_ne m ρ c main_arg19 (by decide))).trans ((show W3 m ρ c (Proc.devRef .tc main_arg19) = W2 m ρ c (Proc.devRef .tc main_arg19) from (by untouched hostOps1)).trans ((show W2 m ρ c (Proc.devRef .tc main_arg19) = W1 m ρ c (Proc.devRef .tc main_arg19) from (W2_of_ne m ρ c main_arg19 (by decide))).trans (show W1 m ρ c (Proc.devRef .tc main_arg19) = W0 m ρ c (Proc.devRef .tc main_arg19) from (by untouched hostOps0)))))))))
theorem arg20_at8 : W8 m ρ c (Proc.devRef .tc main_arg20) = (m ((c : Thread nD τ).loc main_arg20)) :=
  ((show W8 m ρ c (Proc.devRef .tc main_arg20) = W7 m ρ c (Proc.devRef .tc main_arg20) from (W8_of_ne m ρ c main_arg20 (by decide))).trans ((show W7 m ρ c (Proc.devRef .tc main_arg20) = W6 m ρ c (Proc.devRef .tc main_arg20) from (W7_of_ne m ρ c main_arg20 (by decide))).trans ((show W6 m ρ c (Proc.devRef .tc main_arg20) = W5 m ρ c (Proc.devRef .tc main_arg20) from (by untouched hostOps3)).trans ((show W5 m ρ c (Proc.devRef .tc main_arg20) = W4 m ρ c (Proc.devRef .tc main_arg20) from (W5_of_ne m ρ c main_arg20 (by decide))).trans ((show W4 m ρ c (Proc.devRef .tc main_arg20) = W3 m ρ c (Proc.devRef .tc main_arg20) from (W4_of_ne m ρ c main_arg20 (by decide))).trans ((show W3 m ρ c (Proc.devRef .tc main_arg20) = W2 m ρ c (Proc.devRef .tc main_arg20) from (by untouched hostOps1)).trans ((show W2 m ρ c (Proc.devRef .tc main_arg20) = W1 m ρ c (Proc.devRef .tc main_arg20) from (W2_of_ne m ρ c main_arg20 (by decide))).trans (show W1 m ρ c (Proc.devRef .tc main_arg20) = W0 m ρ c (Proc.devRef .tc main_arg20) from (by untouched hostOps0)))))))))
theorem arg2_at10 : W10 m ρ c (Proc.devRef .tc main_arg2) = (m ((c : Thread nD τ).loc main_arg2)) :=
  ((show W10 m ρ c (Proc.devRef .tc main_arg2) = W9 m ρ c (Proc.devRef .tc main_arg2) from (W10_of_ne m ρ c main_arg2 (by decide))).trans ((show W9 m ρ c (Proc.devRef .tc main_arg2) = W8 m ρ c (Proc.devRef .tc main_arg2) from (by untouched hostOps5)).trans ((show W8 m ρ c (Proc.devRef .tc main_arg2) = W7 m ρ c (Proc.devRef .tc main_arg2) from (W8_of_ne m ρ c main_arg2 (by decide))).trans ((show W7 m ρ c (Proc.devRef .tc main_arg2) = W6 m ρ c (Proc.devRef .tc main_arg2) from (W7_of_ne m ρ c main_arg2 (by decide))).trans ((show W6 m ρ c (Proc.devRef .tc main_arg2) = W5 m ρ c (Proc.devRef .tc main_arg2) from (by untouched hostOps3)).trans ((show W5 m ρ c (Proc.devRef .tc main_arg2) = W4 m ρ c (Proc.devRef .tc main_arg2) from (W5_of_ne m ρ c main_arg2 (by decide))).trans ((show W4 m ρ c (Proc.devRef .tc main_arg2) = W3 m ρ c (Proc.devRef .tc main_arg2) from (W4_of_ne m ρ c main_arg2 (by decide))).trans ((show W3 m ρ c (Proc.devRef .tc main_arg2) = W2 m ρ c (Proc.devRef .tc main_arg2) from (by untouched hostOps1)).trans ((show W2 m ρ c (Proc.devRef .tc main_arg2) = W1 m ρ c (Proc.devRef .tc main_arg2) from (W2_of_ne m ρ c main_arg2 (by decide))).trans (show W1 m ρ c (Proc.devRef .tc main_arg2) = W0 m ρ c (Proc.devRef .tc main_arg2) from (by untouched hostOps0)))))))))))
theorem arg22_at10 : W10 m ρ c (Proc.devRef .tc main_arg22) = (m ((c : Thread nD τ).loc main_arg22)) :=
  ((show W10 m ρ c (Proc.devRef .tc main_arg22) = W9 m ρ c (Proc.devRef .tc main_arg22) from (W10_of_ne m ρ c main_arg22 (by decide))).trans ((show W9 m ρ c (Proc.devRef .tc main_arg22) = W8 m ρ c (Proc.devRef .tc main_arg22) from (by untouched hostOps5)).trans ((show W8 m ρ c (Proc.devRef .tc main_arg22) = W7 m ρ c (Proc.devRef .tc main_arg22) from (W8_of_ne m ρ c main_arg22 (by decide))).trans ((show W7 m ρ c (Proc.devRef .tc main_arg22) = W6 m ρ c (Proc.devRef .tc main_arg22) from (W7_of_ne m ρ c main_arg22 (by decide))).trans ((show W6 m ρ c (Proc.devRef .tc main_arg22) = W5 m ρ c (Proc.devRef .tc main_arg22) from (by untouched hostOps3)).trans ((show W5 m ρ c (Proc.devRef .tc main_arg22) = W4 m ρ c (Proc.devRef .tc main_arg22) from (W5_of_ne m ρ c main_arg22 (by decide))).trans ((show W4 m ρ c (Proc.devRef .tc main_arg22) = W3 m ρ c (Proc.devRef .tc main_arg22) from (W4_of_ne m ρ c main_arg22 (by decide))).trans ((show W3 m ρ c (Proc.devRef .tc main_arg22) = W2 m ρ c (Proc.devRef .tc main_arg22) from (by untouched hostOps1)).trans ((show W2 m ρ c (Proc.devRef .tc main_arg22) = W1 m ρ c (Proc.devRef .tc main_arg22) from (W2_of_ne m ρ c main_arg22 (by decide))).trans (show W1 m ρ c (Proc.devRef .tc main_arg22) = W0 m ρ c (Proc.devRef .tc main_arg22) from (by untouched hostOps0)))))))))))
theorem arg24_at10 : W10 m ρ c (Proc.devRef .tc main_arg24) = (m ((c : Thread nD τ).loc main_arg24)) :=
  ((show W10 m ρ c (Proc.devRef .tc main_arg24) = W9 m ρ c (Proc.devRef .tc main_arg24) from (W10_of_ne m ρ c main_arg24 (by decide))).trans ((show W9 m ρ c (Proc.devRef .tc main_arg24) = W8 m ρ c (Proc.devRef .tc main_arg24) from (by untouched hostOps5)).trans ((show W8 m ρ c (Proc.devRef .tc main_arg24) = W7 m ρ c (Proc.devRef .tc main_arg24) from (W8_of_ne m ρ c main_arg24 (by decide))).trans ((show W7 m ρ c (Proc.devRef .tc main_arg24) = W6 m ρ c (Proc.devRef .tc main_arg24) from (W7_of_ne m ρ c main_arg24 (by decide))).trans ((show W6 m ρ c (Proc.devRef .tc main_arg24) = W5 m ρ c (Proc.devRef .tc main_arg24) from (by untouched hostOps3)).trans ((show W5 m ρ c (Proc.devRef .tc main_arg24) = W4 m ρ c (Proc.devRef .tc main_arg24) from (W5_of_ne m ρ c main_arg24 (by decide))).trans ((show W4 m ρ c (Proc.devRef .tc main_arg24) = W3 m ρ c (Proc.devRef .tc main_arg24) from (W4_of_ne m ρ c main_arg24 (by decide))).trans ((show W3 m ρ c (Proc.devRef .tc main_arg24) = W2 m ρ c (Proc.devRef .tc main_arg24) from (by untouched hostOps1)).trans ((show W2 m ρ c (Proc.devRef .tc main_arg24) = W1 m ρ c (Proc.devRef .tc main_arg24) from (W2_of_ne m ρ c main_arg24 (by decide))).trans (show W1 m ρ c (Proc.devRef .tc main_arg24) = W0 m ρ c (Proc.devRef .tc main_arg24) from (by untouched hostOps0)))))))))))
theorem arg21_at11 : W11 m ρ c (Proc.devRef .tc main_arg21) = (m ((c : Thread nD τ).loc main_arg21)) :=
  ((show W11 m ρ c (Proc.devRef .tc main_arg21) = W10 m ρ c (Proc.devRef .tc main_arg21) from (by untouched hostOps6)).trans ((show W10 m ρ c (Proc.devRef .tc main_arg21) = W9 m ρ c (Proc.devRef .tc main_arg21) from (W10_of_ne m ρ c main_arg21 (by decide))).trans ((show W9 m ρ c (Proc.devRef .tc main_arg21) = W8 m ρ c (Proc.devRef .tc main_arg21) from (by untouched hostOps5)).trans ((show W8 m ρ c (Proc.devRef .tc main_arg21) = W7 m ρ c (Proc.devRef .tc main_arg21) from (W8_of_ne m ρ c main_arg21 (by decide))).trans ((show W7 m ρ c (Proc.devRef .tc main_arg21) = W6 m ρ c (Proc.devRef .tc main_arg21) from (W7_of_ne m ρ c main_arg21 (by decide))).trans ((show W6 m ρ c (Proc.devRef .tc main_arg21) = W5 m ρ c (Proc.devRef .tc main_arg21) from (by untouched hostOps3)).trans ((show W5 m ρ c (Proc.devRef .tc main_arg21) = W4 m ρ c (Proc.devRef .tc main_arg21) from (W5_of_ne m ρ c main_arg21 (by decide))).trans ((show W4 m ρ c (Proc.devRef .tc main_arg21) = W3 m ρ c (Proc.devRef .tc main_arg21) from (W4_of_ne m ρ c main_arg21 (by decide))).trans ((show W3 m ρ c (Proc.devRef .tc main_arg21) = W2 m ρ c (Proc.devRef .tc main_arg21) from (by untouched hostOps1)).trans ((show W2 m ρ c (Proc.devRef .tc main_arg21) = W1 m ρ c (Proc.devRef .tc main_arg21) from (W2_of_ne m ρ c main_arg21 (by decide))).trans (show W1 m ρ c (Proc.devRef .tc main_arg21) = W0 m ρ c (Proc.devRef .tc main_arg21) from (by untouched hostOps0))))))))))))
theorem arg23_at11 : W11 m ρ c (Proc.devRef .tc main_arg23) = (m ((c : Thread nD τ).loc main_arg23)) :=
  ((show W11 m ρ c (Proc.devRef .tc main_arg23) = W10 m ρ c (Proc.devRef .tc main_arg23) from (by untouched hostOps6)).trans ((show W10 m ρ c (Proc.devRef .tc main_arg23) = W9 m ρ c (Proc.devRef .tc main_arg23) from (W10_of_ne m ρ c main_arg23 (by decide))).trans ((show W9 m ρ c (Proc.devRef .tc main_arg23) = W8 m ρ c (Proc.devRef .tc main_arg23) from (by untouched hostOps5)).trans ((show W8 m ρ c (Proc.devRef .tc main_arg23) = W7 m ρ c (Proc.devRef .tc main_arg23) from (W8_of_ne m ρ c main_arg23 (by decide))).trans ((show W7 m ρ c (Proc.devRef .tc main_arg23) = W6 m ρ c (Proc.devRef .tc main_arg23) from (W7_of_ne m ρ c main_arg23 (by decide))).trans ((show W6 m ρ c (Proc.devRef .tc main_arg23) = W5 m ρ c (Proc.devRef .tc main_arg23) from (by untouched hostOps3)).trans ((show W5 m ρ c (Proc.devRef .tc main_arg23) = W4 m ρ c (Proc.devRef .tc main_arg23) from (W5_of_ne m ρ c main_arg23 (by decide))).trans ((show W4 m ρ c (Proc.devRef .tc main_arg23) = W3 m ρ c (Proc.devRef .tc main_arg23) from (W4_of_ne m ρ c main_arg23 (by decide))).trans ((show W3 m ρ c (Proc.devRef .tc main_arg23) = W2 m ρ c (Proc.devRef .tc main_arg23) from (by untouched hostOps1)).trans ((show W2 m ρ c (Proc.devRef .tc main_arg23) = W1 m ρ c (Proc.devRef .tc main_arg23) from (W2_of_ne m ρ c main_arg23 (by decide))).trans (show W1 m ρ c (Proc.devRef .tc main_arg23) = W0 m ρ c (Proc.devRef .tc main_arg23) from (by untouched hostOps0))))))))))))
theorem v69_at9 : W9 m ρ c (Proc.devRef .tc main_v69) = (Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (show W9 m ρ c (Proc.devRef .tc main_v69) = W8 m ρ c (Proc.devRef .tc main_v69) from (by untouched hostOps5)).trans (v69_at8 m ρ c)
theorem v82_at9 : W9 m ρ c (Proc.devRef .tc main_v82) = (Cert.ReferenceIdeal.Read.val_main_v114 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps5 (W8 m ρ c) (Proc.devRef .tc main_v82) = _
  simp only [hostOps5]
  after_results_simp
  rw [v69_at8 m ρ c, v1_at8 m ρ c, v3_at8 m ρ c, v25_at8 m ρ c]
  rfl
theorem v88_at9 : W9 m ρ c (Proc.devRef .tc main_v88) = shapeCast S100000x1 (Cert.ReferenceIdeal.Read.val_main_v26 (F := Ideal) (m ((c : Thread nD τ).loc main_arg1))) shapeCasts_S100000_S100000x1 := by
  show StableHlo.after hostOps5 (W8 m ρ c) (Proc.devRef .tc main_v88) = _
  simp only [hostOps5]
  after_results_simp
  rw [v26_at8 m ρ c]
  rfl
theorem v83_at9 : W9 m ρ c (Proc.devRef .tc main_v83) = shapeCast S1x64 (m ((c : Thread nD τ).loc main_arg16)) shapeCasts_S64_S1x64 := by
  show StableHlo.after hostOps5 (W8 m ρ c) (Proc.devRef .tc main_v83) = _
  simp only [hostOps5]
  after_results_simp
  rw [arg16_at8 m ρ c]
  rfl
theorem v84_at9 : W9 m ρ c (Proc.devRef .tc main_v84) = shapeCast S1x64 (m ((c : Thread nD τ).loc main_arg17)) shapeCasts_S64_S1x64 := by
  show StableHlo.after hostOps5 (W8 m ρ c) (Proc.devRef .tc main_v84) = _
  simp only [hostOps5]
  after_results_simp
  rw [arg17_at8 m ρ c]
  rfl
theorem v85_at9 : W9 m ρ c (Proc.devRef .tc main_v85) = shapeCast S1x64 (m ((c : Thread nD τ).loc main_arg18)) shapeCasts_S64_S1x64 := by
  show StableHlo.after hostOps5 (W8 m ρ c) (Proc.devRef .tc main_v85) = _
  simp only [hostOps5]
  after_results_simp
  rw [arg18_at8 m ρ c]
  rfl
theorem v86_at9 : W9 m ρ c (Proc.devRef .tc main_v86) = shapeCast S1x64 (m ((c : Thread nD τ).loc main_arg19)) shapeCasts_S64_S1x64 := by
  show StableHlo.after hostOps5 (W8 m ρ c) (Proc.devRef .tc main_v86) = _
  simp only [hostOps5]
  after_results_simp
  rw [arg19_at8 m ρ c]
  rfl
theorem v87_at9 : W9 m ρ c (Proc.devRef .tc main_v87) = shapeCast S1x64 (m ((c : Thread nD τ).loc main_arg20)) shapeCasts_S64_S1x64 := by
  show StableHlo.after hostOps5 (W8 m ρ c) (Proc.devRef .tc main_v87) = _
  simp only [hostOps5]
  after_results_simp
  rw [arg20_at8 m ρ c]
  rfl
/-- After the third combine region its output array holds the reference's third layer. -/
theorem v89_at10 : W10 m ρ c (Proc.devRef .tc main_v89) = (Cert.ReferenceIdeal.Read.val_main_v137 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W10_arr m ρ c 8).trans ((Combine5.value (V9 m ρ) c).trans ?_)
  rw [show V9 m ρ c main_v82 = _ from v82_at9 m ρ c,
    show V9 m ρ c main_v69 = _ from v69_at9 m ρ c,
    show V9 m ρ c main_v88 = _ from v88_at9 m ρ c,
    show V9 m ρ c main_v83 = _ from v83_at9 m ρ c,
    show V9 m ρ c main_v84 = _ from v84_at9 m ρ c,
    show V9 m ρ c main_v85 = _ from v85_at9 m ρ c,
    show V9 m ρ c main_v86 = _ from v86_at9 m ρ c,
    show V9 m ρ c main_v87 = _ from v87_at9 m ρ c]
  exact (Cert.ReferenceIdeal.Stage.combine_eq _ _ _ _ _ _ _ _ shapeCasts_S100000_S100000x1 shapeCasts_S64_S1x64).symm
theorem v101_at11 : W11 m ρ c (Proc.devRef .tc main_v101) = (Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps6 (W10 m ρ c) (Proc.devRef .tc main_v101) = _
  simp only [hostOps6]
  after_results_simp
  rw [v89_at10 m ρ c, arg2_at10 m ρ c]
  rfl
theorem v102_at11 : W11 m ρ c (Proc.devRef .tc main_v102) = shapeCast S1x32 (m ((c : Thread nD τ).loc main_arg22)) shapeCasts_S32_S1x32 := by
  show StableHlo.after hostOps6 (W10 m ρ c) (Proc.devRef .tc main_v102) = _
  simp only [hostOps6]
  after_results_simp
  rw [arg22_at10 m ρ c]
  rfl
theorem v103_at11 : W11 m ρ c (Proc.devRef .tc main_v103) = shapeCast S1x2 (m ((c : Thread nD τ).loc main_arg24)) shapeCasts_S2_S1x2 := by
  show StableHlo.after hostOps6 (W10 m ρ c) (Proc.devRef .tc main_v103) = _
  simp only [hostOps6]
  after_results_simp
  rw [arg24_at10 m ρ c]
  rfl
/-- THE RESULT: after the head region, the last segment, the result array holds the reference's result. -/
theorem v104_at12 : W12 m ρ c (Proc.devRef .tc main_v104) = (Cert.ReferenceIdeal.Read.val_main_v164 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  refine (W12_arr m ρ c 5).trans ((Head6.value (V11 m ρ) c).trans ?_)
  rw [show V11 m ρ c main_v101 = _ from v101_at11 m ρ c,
    show V11 m ρ c main_arg21 = _ from arg21_at11 m ρ c,
    show V11 m ρ c main_v102 = _ from v102_at11 m ρ c,
    show V11 m ρ c main_arg23 = _ from arg23_at11 m ρ c,
    show V11 m ρ c main_v103 = _ from v103_at11 m ρ c]
  exact (Cert.ReferenceIdeal.Stage.head_eq _ _ _ _ _ shapeCasts_S32_S1x32 shapeCasts_S2_S1x2).symm

end Cert.KernelIdeal.Whole

end
-- ==== Proof.lean ====
/-
  The kernel and its reference compute the same network on the extended reals.

  The network: three graph-convolution layers, mean pooling over each graph, a two-layer head. A layer multiplies
  the node features by a weight matrix; gathers each edge's source row, scales it by the edge's weight and sums it
  into the edge's destination row; adds the node's own row scaled by its self-loop weight and the bias; normalises
  each feature by its running statistics; and takes the positive part. The edge weights and the self-loop weights
  come from the node degrees, computed from the edge list.

  The kernel program runs the matrix products, the combination-normalisation-positive-part chains and the head as
  seven kernel regions, block by block over the rows; everything that follows the edge list — the degrees and
  weights, the gathers and the scatter sums, the pooling — it leaves to host operations, the same ones the
  reference uses. The reference does everything with host operations on whole arrays.

  So the two programs apply the same operations in the same order, and the proof is a walk through the kernel
  program's twelve segments showing that each array the kernel program produces is the array the reference produces
  at the corresponding place:
    * a dense region leaves the matrix product of its operands: at (p, q) the sum over k of left (p, k) · right (k, q),
      which is what the reference's contraction is at (p, q) (narrowing the operands to a shorter float format before
      the product changes nothing on the extended reals);
    * a combine region leaves, entry by entry, the same combination the reference builds from whole arrays by
      repeating the self-loop weights along rows and the parameters down columns;
    * the head region leaves the reference's head: the kernel's logistic function and the reference's
      1 / (1 + exp (−x)) are one function on the extended reals;
    * the stretches of host operations in between are the reference's own operations applied to arrays already
      known to be equal.
  No algebraic law is needed beyond these readings — no sum is regrouped and nothing is distributed — so the
  finiteness of the inputs is not used.

  Each program's frame — every execution terminates, nothing faults, the argument arrays end unchanged — is its run
  with the result dropped. Nothing was rewritten when the kernel was idealized, so there is nothing to preserve.
-/
import proofs.«181545_j70549132804339_1_alg».proof.Defs
import proofs.«181545_j70549132804339_1_alg».proof.Proof.Gen.Kernel
import proofs.«181545_j70549132804339_1_alg».proof.Proof.Gen.Kernel.Skeleton
import proofs.«181545_j70549132804339_1_alg».proof.Proof.Gen.Kernel.Launch
import proofs.«181545_j70549132804339_1_alg».proof.Proof.Gen.Kernel.Points
import proofs.«181545_j70549132804339_1_alg».proof.Proof.Gen.Kernel.Frame
import proofs.«181545_j70549132804339_1_alg».proof.Proof.Gen.KernelIdeal
import proofs.«181545_j70549132804339_1_alg».proof.Proof.Gen.KernelIdeal.Skeleton
import proofs.«181545_j70549132804339_1_alg».proof.Proof.Gen.KernelIdeal.Launch
import proofs.«181545_j70549132804339_1_alg».proof.Proof.Gen.KernelIdeal.Points
import proofs.«181545_j70549132804339_1_alg».proof.Proof.Gen.KernelIdeal.Frame
import proofs.«181545_j70549132804339_1_alg».proof.Proof.Gen.ReferenceIdeal
import proofs.«181545_j70549132804339_1_alg».proof.Proof.Gen.ReferenceIdeal.Run
import proofs.«181545_j70549132804339_1_alg».proof.Proof.Gen.ReferenceIdeal.Read
import proofs.«181545_j70549132804339_1_alg».proof.Proof.Gen.Pre_finite_inputs
import proofs.«181545_j70549132804339_1_alg».proof.Proof.KRun
import proofs.«181545_j70549132804339_1_alg».proof.Proof.KFoldC
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the arguments both programs end with the reference's result of those arguments:
    the kernel program's last segment leaves it in the result array (the walk through the twelve segments), and the
    reference's run ends at its own composed term. -/
theorem algebraic : Cert.algebraic_KernelIdeal_ReferenceIdeal := by
  intro m ρ m' ρ' _ hagree
  refine ⟨fun c => Cert.ReferenceIdeal.Read.val_main_v164 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24)), ?_, ?_⟩
  · refine (θ_run Cert.KernelIdeal.defs _ _).mono (fun r h c => ?_) (Cert.KernelIdeal.Whole.run_final m ρ)
    exact ⟨(h c _ (Cert.KernelIdeal.Whole.lasting Cert.KernelIdeal.main_v104 (by decide))).trans (Cert.KernelIdeal.Whole.v104_at12 m ρ c),
      (h c _ (Cert.KernelIdeal.Whole.lasting Cert.KernelIdeal.main_arg0 (by decide))).trans (Cert.KernelIdeal.Gen.W12_main_arg0 m ρ c),
      (h c _ (Cert.KernelIdeal.Whole.lasting Cert.KernelIdeal.main_arg1 (by decide))).trans (Cert.KernelIdeal.Gen.W12_main_arg1 m ρ c),
      (h c _ (Cert.KernelIdeal.Whole.lasting Cert.KernelIdeal.main_arg2 (by decide))).trans (Cert.KernelIdeal.Gen.W12_main_arg2 m ρ c),
      (h c _ (Cert.KernelIdeal.Whole.lasting Cert.KernelIdeal.main_arg3 (by decide))).trans (Cert.KernelIdeal.Gen.W12_main_arg3 m ρ c),
      (h c _ (Cert.KernelIdeal.Whole.lasting Cert.KernelIdeal.main_arg4 (by decide))).trans (Cert.KernelIdeal.Gen.W12_main_arg4 m ρ c),
      (h c _ (Cert.KernelIdeal.Whole.lasting Cert.KernelIdeal.main_arg5 (by decide))).trans (Cert.KernelIdeal.Gen.W12_main_arg5 m ρ c),
      (h c _ (Cert.KernelIdeal.Whole.lasting Cert.KernelIdeal.main_arg6 (by decide))).trans (Cert.KernelIdeal.Gen.W12_main_arg6 m ρ c),
      (h c _ (Cert.KernelIdeal.Whole.lasting Cert.KernelIdeal.main_arg7 (by decide))).trans (Cert.KernelIdeal.Gen.W12_main_arg7 m ρ c),
      (h c _ (Cert.KernelIdeal.Whole.lasting Cert.KernelIdeal.main_arg8 (by decide))).trans (Cert.KernelIdeal.Gen.W12_main_arg8 m ρ c),
      (h c _ (Cert.KernelIdeal.Whole.lasting Cert.KernelIdeal.main_arg9 (by decide))).trans (Cert.KernelIdeal.Gen.W12_main_arg9 m ρ c),
      (h c _ (Cert.KernelIdeal.Whole.lasting Cert.KernelIdeal.main_arg10 (by decide))).trans (Cert.KernelIdeal.Gen.W12_main_arg10 m ρ c),
      (h c _ (Cert.KernelIdeal.Whole.lasting Cert.KernelIdeal.main_arg11 (by decide))).trans (Cert.KernelIdeal.Gen.W12_main_arg11 m ρ c),
      (h c _ (Cert.KernelIdeal.Whole.lasting Cert.KernelIdeal.main_arg12 (by decide))).trans (Cert.KernelIdeal.Gen.W12_main_arg12 m ρ c),
      (h c _ (Cert.KernelIdeal.Whole.lasting Cert.KernelIdeal.main_arg13 (by decide))).trans (Cert.KernelIdeal.Gen.W12_main_arg13 m ρ c),
      (h c _ (Cert.KernelIdeal.Whole.lasting Cert.KernelIdeal.main_arg14 (by decide))).trans (Cert.KernelIdeal.Gen.W12_main_arg14 m ρ c),
      (h c _ (Cert.KernelIdeal.Whole.lasting Cert.KernelIdeal.main_arg15 (by decide))).trans (Cert.KernelIdeal.Gen.W12_main_arg15 m ρ c),
      (h c _ (Cert.KernelIdeal.Whole.lasting Cert.KernelIdeal.main_arg16 (by decide))).trans (Cert.KernelIdeal.Gen.W12_main_arg16 m ρ c),
      (h c _ (Cert.KernelIdeal.Whole.lasting Cert.KernelIdeal.main_arg17 (by decide))).trans (Cert.KernelIdeal.Gen.W12_main_arg17 m ρ c),
      (h c _ (Cert.KernelIdeal.Whole.lasting Cert.KernelIdeal.main_arg18 (by decide))).trans (Cert.KernelIdeal.Gen.W12_main_arg18 m ρ c),
      (h c _ (Cert.KernelIdeal.Whole.lasting Cert.KernelIdeal.main_arg19 (by decide))).trans (Cert.KernelIdeal.Gen.W12_main_arg19 m ρ c),
      (h c _ (Cert.KernelIdeal.Whole.lasting Cert.KernelIdeal.main_arg20 (by decide))).trans (Cert.KernelIdeal.Gen.W12_main_arg20 m ρ c),
      (h c _ (Cert.KernelIdeal.Whole.lasting Cert.KernelIdeal.main_arg21 (by decide))).trans (Cert.KernelIdeal.Gen.W12_main_arg21 m ρ c),
      (h c _ (Cert.KernelIdeal.Whole.lasting Cert.KernelIdeal.main_arg22 (by decide))).trans (Cert.KernelIdeal.Gen.W12_main_arg22 m ρ c),
      (h c _ (Cert.KernelIdeal.Whole.lasting Cert.KernelIdeal.main_arg23 (by decide))).trans (Cert.KernelIdeal.Gen.W12_main_arg23 m ρ c),
      (h c _ (Cert.KernelIdeal.Whole.lasting Cert.KernelIdeal.main_arg24 (by decide))).trans (Cert.KernelIdeal.Gen.W12_main_arg24 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v164_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
